-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1000000x128 : Shape := ⟨2, ![1000000, 128]⟩
abbrev S2x1000000 : Shape := ⟨2, ![2, 1000000]⟩
abbrev S128x128 : Shape := ⟨2, ![128, 128]⟩
abbrev S128 : Shape := ⟨1, ![128]⟩
abbrev S256x128 : Shape := ⟨2, ![256, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1000000x128 : S_.BroadcastsInDim S1000000x128 (![] : Fin 0 → Fin S1000000x128.rank)
  reducesTo_S1000000x128_S_d0_1 : S1000000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_

variable [Facts]

def fn_part1 {F : FTy → Type} [FloatOps F] (main_arg5 : FVec F S256x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x128 .f32) (main_arg1 : FVec F S1000000x128 .f32) (main_arg2 : IVec S2x1000000 32) (main_arg3 : FVec F S128x128 .f32) (main_arg4 : FVec F S128 .f32) (main_arg5 : FVec F S256x128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1000000x128 .f32 := Host.absf main_arg1
  let main_cst_0 : FVec F S_ .f32 := constant S_ .f32 0x7F800000#32
  let main_v5 : FVec F S1000000x128 .f32 := broadcastInDim S1000000x128 ![] bcast_S_S1000000x128 main_cst_0
  let main_v6 : IVec S1000000x128 1 := cmpf .olt main_v4 main_v5
  let main_c_1 : IVec S_ 1 := constantI S_ 1 1#1
  let main_v7 : IVec S_ 1 := (fun x v => Host.reduce IntOp.andi x v reducesTo_S1000000x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S100000x128 : Shape := ⟨2, ![100000, 128]⟩
abbrev S1000000x128 : Shape := ⟨2, ![1000000, 128]⟩
abbrev S2x1000000 : Shape := ⟨2, ![2, 1000000]⟩
abbrev S128x128 : Shape := ⟨2, ![128, 128]⟩
abbrev S128 : Shape := ⟨1, ![128]⟩
abbrev S256x128 : Shape := ⟨2, ![256, 128]⟩
abbrev S1x128 : Shape := ⟨2, ![1, 128]⟩
abbrev S10000x128 : Shape := ⟨2, ![10000, 128]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S100000 : Shape := ⟨1, ![100000]⟩
abbrev S100000x1 : Shape := ⟨2, ![100000, 1]⟩
abbrev S5000x128 : Shape := ⟨2, ![5000, 128]⟩
abbrev S5000x1 : Shape := ⟨2, ![5000, 1]⟩
abbrev S5000 : Shape := ⟨1, ![5000]⟩

abbrev nBuf : Space → Nat
  | .hbm => 34
  | .vmem => 17
  | .smem => 0
  | _ => 0

abbrev bufTy : (tb : Table) → Fin (tcTables nBuf tb) → BufTy
  | .hbm, ⟨0, _⟩ => ⟨S100000x128, .f32⟩
  | .hbm, ⟨1, _⟩ => ⟨S1000000x128, .f32⟩
  | .hbm, ⟨2, _⟩ => ⟨S2x1000000, .i32⟩
  | .hbm, ⟨3, _⟩ => ⟨S128x128, .f32⟩
  | .hbm, ⟨4, _⟩ => ⟨S128, .f32⟩
  | .hbm, ⟨5, _⟩ => ⟨S256x128, .f32⟩
  | .hbm, ⟨6, _⟩ => ⟨S128, .f32⟩
  | .hbm, ⟨7, _⟩ => ⟨S1x128, .f32⟩
  | .hbm, ⟨8, _⟩ => ⟨S1000000x128, .bf16⟩
  | .hbm, ⟨9, _⟩ => ⟨S1x1000000, .i32⟩
  | .hbm, ⟨10, _⟩ => ⟨S1000000, .i32⟩
  | .hbm, ⟨11, _⟩ => ⟨S1000000x128, .f32⟩
  | .hbm, ⟨12, _⟩ => ⟨S_, .f32⟩
  | .hbm, ⟨13, _⟩ => ⟨S100000x128, .f32⟩
  | .hbm, ⟨14, _⟩ => ⟨S1000000x1, .i32⟩
  | .hbm, ⟨15, _⟩ => ⟨S100000x128, .f32⟩
  | .hbm, ⟨16, _⟩ => ⟨S_, .f32⟩
  | .hbm, ⟨17, _⟩ => ⟨S1000000, .f32⟩
  | .hbm, ⟨18, _⟩ => ⟨S_, .f32⟩
  | .hbm, ⟨19, _⟩ => ⟨S100000, .f32⟩
  | .hbm, ⟨20, _⟩ => ⟨S1000000x1, .i32⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S128x128, .f32⟩
  | .hbm, ⟨31, _⟩ => ⟨S128x128, .f32⟩
  | .hbm, ⟨32, _⟩ => ⟨S1x128, .f32⟩
  | .hbm, ⟨33, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S1x128, .f32⟩
  | .local _ .vmem, ⟨4, _⟩ => ⟨S10000x128, .bf16⟩
  | .local _ .vmem, ⟨5, _⟩ => ⟨S10000x128, .bf16⟩
  | .local _ .vmem, ⟨6, _⟩ => ⟨S5000x128, .f32⟩
  | .local _ .vmem, ⟨7, _⟩ => ⟨S5000x128, .f32⟩
  | .local _ .vmem, ⟨8, _⟩ => ⟨S5000x1, .f32⟩
  | .local _ .vmem, ⟨9, _⟩ => ⟨S5000x1, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S128x128, .f32⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  packedbf16_S10000x128_S10000x128_0_0 : (Rect.unit (s := S10000x128) ![0, 0] S10000x128.size inb_S10000x128_S10000x128_0_0).PackedRows (EltTy.packing .bf16)
  slices_S2x1000000_S1x1000000_0_0 : S2x1000000.Slices ![0, 0] S1x1000000
  shapeCasts_S1x1000000_S1000000 : S1x1000000.ShapeCasts S1000000
  bcast_S_S100000x128 : S_.BroadcastsInDim S100000x128 (![] : Fin 0 → Fin S100000x128.rank)
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S_S100000 : S_.BroadcastsInDim S100000 (![] : Fin 0 → Fin S100000.rank)
  shapeCasts_S100000_S100000x1 : S100000.ShapeCasts S100000x1
  slices_S256x128_S128x128_0_0 : S256x128.Slices ![0, 0] S128x128
  slices_S256x128_S128x128_128_0 : S256x128.Slices ![128, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  shapeCasts_S128x128_S128x128 : S128x128.ShapeCasts S128x128
  broadcasts_S1x128_S5000x128 : S1x128.Broadcasts S5000x128
  reduces_S5000x128_S5000 : S5000x128.Reduces [1] S5000
  shapeCasts_S5000_S5000x1 : S5000.ShapeCasts S5000x1
  dot_S10000x128_S128x128_S10000x128_1_0_0_1_n_n_wf : DotDims.WF S10000x128 S128x128 S10000x128 [1] [0] [0] [1] [] []
  scatter_S100000x128_S1000000x1_S1000000x128_1_0_0_1_wf : ScatterDims.WF S100000x128 S1000000x1 S1000000x128 [1] [0] [0] 1
  scatter_S100000_S1000000x1_S1000000_n_0_0_1_wf : ScatterDims.WF S100000 S1000000x1 S1000000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S1000000x128.size a
  hwx0_0 : ∀ i : grid0.Coords, EltTy.bits .f32 = 32 ∨ (Rect.block (s := S1000000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S1000000x128.size a
  hwx0_3 : ∀ i : grid0.Coords, EltTy.bits .bf16 = 32 ∨ (Rect.block (s := S1000000x128) S10000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg1) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v7) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v16) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v18) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v19) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S1000000x128 : Shape := ⟨2, ![1000000, 128]⟩
abbrev S2x1000000 : Shape := ⟨2, ![2, 1000000]⟩
abbrev S128x128 : Shape := ⟨2, ![128, 128]⟩
abbrev S128 : Shape := ⟨1, ![128]⟩
abbrev S256x128 : Shape := ⟨2, ![256, 128]⟩
abbrev S1x128 : Shape := ⟨2, ![1, 128]⟩
abbrev S_ : Shape := ⟨0, ![]⟩
abbrev S1x1000000 : Shape := ⟨2, ![1, 1000000]⟩
abbrev S1000000 : Shape := ⟨1, ![1000000]⟩
abbrev S1000000x1 : Shape := ⟨2, ![1000000, 1]⟩
abbrev S100000 : Shape := ⟨1, ![100000]⟩
abbrev S100000x1 : Shape := ⟨2, ![100000, 1]⟩
abbrev S100000x256 : Shape := ⟨2, ![100000, 256]⟩

abbrev nBuf : Space → Nat
  | .hbm => 51
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1000000x128, .f32⟩
  | .hbm, ⟨2, _⟩ => ⟨S2x1000000, .i32⟩
  | .hbm, ⟨3, _⟩ => ⟨S128x128, .f32⟩
  | .hbm, ⟨4, _⟩ => ⟨S128, .f32⟩
  | .hbm, ⟨5, _⟩ => ⟨S256x128, .f32⟩
  | .hbm, ⟨6, _⟩ => ⟨S128, .f32⟩
  | .hbm, ⟨7, _⟩ => ⟨S1000000x128, .f32⟩
  | .hbm, ⟨8, _⟩ => ⟨S1x128, .f32⟩
  | .hbm, ⟨9, _⟩ => ⟨S1000000x128, .f32⟩
  | .hbm, ⟨10, _⟩ => ⟨S1000000x128, .f32⟩
  | .hbm, ⟨11, _⟩ => ⟨S_, .f32⟩
  | .hbm, ⟨12, _⟩ => ⟨S1000000x128, .f32⟩
  | .hbm, ⟨13, _⟩ => ⟨S1000000x128, .f32⟩
  | .hbm, ⟨14, _⟩ => ⟨S1x1000000, .i32⟩
  | .hbm, ⟨15, _⟩ => ⟨S1000000, .i32⟩
  | .hbm, ⟨16, _⟩ => ⟨S_, .f32⟩
  | .hbm, ⟨17, _⟩ => ⟨S100000x128, .f32⟩
  | .hbm, ⟨18, _⟩ => ⟨S1000000x1, .i32⟩
  | .hbm, ⟨19, _⟩ => ⟨S100000x128, .f32⟩
  | .hbm, ⟨20, _⟩ => ⟨S_, .f32⟩
  | .hbm, ⟨21, _⟩ => ⟨S1000000, .f32⟩
  | .hbm, ⟨22, _⟩ => ⟨S_, .f32⟩
  | .hbm, ⟨23, _⟩ => ⟨S100000, .f32⟩
  | .hbm, ⟨24, _⟩ => ⟨S1000000x1, .i32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S100000x128, .f32⟩
  | .hbm, ⟨32, _⟩ => ⟨S100000x128, .f32⟩
  | .hbm, ⟨33, _⟩ => ⟨S100000x256, .f32⟩
  | .hbm, ⟨34, _⟩ => ⟨S100000x128, .f32⟩
  | .hbm, ⟨35, _⟩ => ⟨S1x128, .f32⟩
  | .hbm, ⟨36, _⟩ => ⟨S100000x128, .f32⟩
  | .hbm, ⟨37, _⟩ => ⟨S100000x128, .f32⟩
  | .hbm, ⟨38, _⟩ => ⟨S_, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S_, .f32⟩
  | .hbm, ⟨43, _⟩ => ⟨S100000, .f32⟩
  | .hbm, ⟨44, _⟩ => ⟨S100000x1, .f32⟩
  | .hbm, ⟨45, _⟩ => ⟨S100000x1, .f32⟩
  | .hbm, ⟨46, _⟩ => ⟨S_, .f32⟩
  | .hbm, ⟨47, _⟩ => ⟨S100000x1, .f32⟩
  | .hbm, ⟨48, _⟩ => ⟨S100000x1, .f32⟩
  | .hbm, ⟨49, _⟩ => ⟨S100000x128, .f32⟩
  | .hbm, ⟨50, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call1_v0 : Ref sig .tc := ⟨.hbm, 27, rfl⟩
abbrev main_call1_v1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call2_cst : Ref sig .tc := ⟨.hbm, 38, rfl⟩
abbrev main_call2_v0 : Ref sig .tc := ⟨.hbm, 39, rfl⟩
abbrev main_v23 : Ref sig .tc := ⟨.hbm, 40, rfl⟩
abbrev main_call3_v0 : Ref sig .tc := ⟨.hbm, 41, rfl⟩
abbrev main_call3_cst : Ref sig .tc := ⟨.hbm, 42, rfl⟩
abbrev main_call3_v1 : Ref sig .tc := ⟨.hbm, 43, rfl⟩
abbrev main_call3_v2 : Ref sig .tc := ⟨.hbm, 44, rfl⟩
abbrev main_v24 : Ref sig .tc := ⟨.hbm, 45, rfl⟩
abbrev main_cst_3 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  bcast_S_S1000000x128 : S_.BroadcastsInDim S1000000x128 (![] : Fin 0 → Fin S1000000x128.rank)
  slices_S2x1000000_S1x1000000_0_0 : S2x1000000.Slices ![0, 0] S1x1000000
  shapeCasts_S1x1000000_S1000000 : S1x1000000.ShapeCasts S1000000
  bcast_S_S100000x128 : S_.BroadcastsInDim S100000x128 (![] : Fin 0 → Fin S100000x128.rank)
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  concatenates_S100000x128_S100000x128_S100000x256_d1 : Shape.Concatenates [S100000x128, S100000x128] S100000x256 1
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  dot_S1000000x128_S128x128_S1000000x128_1_0_0_1_n_n_wf : DotDims.WF S1000000x128 S128x128 S1000000x128 [1] [0] [0] [1] [] []
  scatter_S100000x128_S1000000x1_S1000000x128_1_0_0_1_wf : ScatterDims.WF S100000x128 S1000000x1 S1000000x128 [1] [0] [0] 1
  scatter_S100000_S1000000x1_S1000000_n_0_0_1_wf : ScatterDims.WF S100000 S1000000x1 S1000000 [] [0] [0] 1
  dot_S100000x256_S256x128_S100000x128_1_0_0_1_n_n_wf : DotDims.WF S100000x256 S256x128 S100000x128 [1] [0] [0] [1] [] []

variable [Facts₀]

def dot_S1000000x128_S128x128_S1000000x128_1_0_0_1_n_n : DotDims S1000000x128 S128x128 S1000000x128 where
  lhsContracting := [1]
  rhsContracting := [0]
  lhsNonContracting := [0]
  rhsNonContracting := [1]
  lhsBatch := []
  rhsBatch := []
  wf := dot_S1000000x128_S128x128_S1000000x128_1_0_0_1_n_n_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.Host.lean ====
/-
  What the host lines between the two kernels hand to the second one, as functions of the arguments and of the first
  kernel's output array n (the node rows after relu (x · W + b)):

    idx     the hyperedge id of every node: row 0 of the affiliation table, as a column;
    summed  the rows of n added up per hyperedge (a scatter-add into zeros);
    count   ones added up per hyperedge (the member count);
    invc    1 / max (1, count), as a column;
    Wa, We  the upper and lower 128 rows of the 256 × 128 update matrix; the bias as a row.

  Each buffer the second kernel's windows read is one of these, and each buffer the first kernel's windows read is
  an argument (or the first bias as a row).
-/
import proofs.«109613_j47390669144619_2_alg».proof.Proof.Gen.KernelIdeal.Frame
import Idealize.ShloMosaic.Lib.StableHlo.Run

set_option maxRecDepth 16384

noncomputable section

namespace Cert.KernelIdeal.HostRead

open Cert.KernelIdeal Cert.KernelIdeal.Gen
open Idealize.ShloMosaic Idealize.ShloMosaic.TcCoe Idealize.SL.Sem Idealize.ShloMosaic.StableHlo

variable {F : FTy → Type} [FloatOps F]

/-! ## The host stages, as the program spells them -/

/-- Row 0 of the affiliation table as a column of hyperedge ids. -/
def idx (x2 : (⟨S2x1000000, .i32⟩ : BufTy).Contents (Elt F)) : (⟨S1000000x1, .i32⟩ : BufTy).Contents (Elt F) :=
  broadcastInDim S1000000x1 ![0] bcast_S1000000_S1000000x1_0
    (shapeCast _ (extractStridedSlice S1x1000000 ![0, 0] x2 slices_S2x1000000_S1x1000000_0_0) shapeCasts_S1x1000000_S1000000)

/-- The node rows added up per hyperedge. -/
def summed (x2 : (⟨S2x1000000, .i32⟩ : BufTy).Contents (Elt F)) (n : (⟨S1000000x128, .bf16⟩ : BufTy).Contents (Elt F)) :
    (⟨S100000x128, .f32⟩ : BufTy).Contents (Elt F) :=
  Host.scatterAdd scatter_S100000x128_S1000000x1_S1000000x128_1_0_0_1
    (broadcastInDim S100000x128 ![] bcast_S_S100000x128 (constant S_ .f32 0x00000000#32)) (idx x2) (extf .f32 n bitsLt_bf16_f32)

/-- The member count of every hyperedge. -/
def count (x2 : (⟨S2x1000000, .i32⟩ : BufTy).Contents (Elt F)) : (⟨S100000, .f32⟩ : BufTy).Contents (Elt F) :=
  Host.scatterAdd scatter_S100000_S1000000x1_S1000000_n_0_0_1
    (broadcastInDim S100000 ![] bcast_S_S100000 (constant S_ .f32 0x00000000#32)) (idx x2)
    (broadcastInDim S1000000 ![] bcast_S_S1000000 (constant S_ .f32 0x3F800000#32))

/-- The count clamped below by one. -/
def clamped (x2 : (⟨S2x1000000, .i32⟩ : BufTy).Contents (Elt F)) : (⟨S100000, .f32⟩ : BufTy).Contents (Elt F) :=
  maximumf (broadcastInDim S100000 ![] bcast_S_S100000 (id (constant S_ .f32 0x3F800000#32))) (count x2)

/-- The reciprocal of the clamped count, as a column. -/
def invc (x2 : (⟨S2x1000000, .i32⟩ : BufTy).Contents (Elt F)) : (⟨S100000x1, .f32⟩ : BufTy).Contents (Elt F) :=
  shapeCast _ (Host.divf (broadcastInDim S100000 ![] bcast_S_S100000 (constant S_ .f32 0x3F800000#32)) (clamped x2)) shapeCasts_S100000_S100000x1

variable (m : (ℓ : Loc nD τ sig) → Buf (Elt F) ℓ) (ρ : Dev nD → PrngReg)

/-! ## What the first kernel's windows read -/

theorem V1_arg1 (c : Dev nD) : V1 m ρ c main_arg1 = m ((c : Thread nD τ).loc main_arg1) := by
  show StableHlo.after hostOps0 (W0 m ρ c) (Proc.devRef .tc main_arg1) = _
  dsimp only [hostOps0]; after_results

theorem V1_arg3 (c : Dev nD) : V1 m ρ c main_arg3 = m ((c : Thread nD τ).loc main_arg3) := by
  show StableHlo.after hostOps0 (W0 m ρ c) (Proc.devRef .tc main_arg3) = _
  dsimp only [hostOps0]; after_results

theorem V1_v0 (c : Dev nD) : V1 m ρ c main_v0 = shapeCast _ (m ((c : Thread nD τ).loc main_arg4)) shapeCasts_S128_S1x128 := by
  show StableHlo.after hostOps0 (W0 m ρ c) (Proc.devRef .tc main_v0) = _
  dsimp only [hostOps0]; after_results; rfl

/-! ## The arguments, read at the first kernel's exit -/

theorem W2_arg0 (c : Dev nD) : W2 m ρ c (Proc.devRef .tc main_arg0) = m ((c : Thread nD τ).loc main_arg0) := by
  rw [W2_of_ne m ρ c main_arg0 (by decide)]
  show StableHlo.after hostOps0 (W0 m ρ c) (Proc.devRef .tc main_arg0) = _
  dsimp only [hostOps0]; after_results

theorem W2_arg2 (c : Dev nD) : W2 m ρ c (Proc.devRef .tc main_arg2) = m ((c : Thread nD τ).loc main_arg2) := by
  rw [W2_of_ne m ρ c main_arg2 (by decide)]
  show StableHlo.after hostOps0 (W0 m ρ c) (Proc.devRef .tc main_arg2) = _
  dsimp only [hostOps0]; after_results

theorem W2_arg5 (c : Dev nD) : W2 m ρ c (Proc.devRef .tc main_arg5) = m ((c : Thread nD τ).loc main_arg5) := by
  rw [W2_of_ne m ρ c main_arg5 (by decide)]
  show StableHlo.after hostOps0 (W0 m ρ c) (Proc.devRef .tc main_arg5) = _
  dsimp only [hostOps0]; after_results

theorem W2_arg6 (c : Dev nD) : W2 m ρ c (Proc.devRef .tc main_arg6) = m ((c : Thread nD τ).loc main_arg6) := by
  rw [W2_of_ne m ρ c main_arg6 (by decide)]
  show StableHlo.after hostOps0 (W0 m ρ c) (Proc.devRef .tc main_arg6) = _
  dsimp only [hostOps0]; after_results

/-- The first kernel's output array, at its exit, is what its write-backs left. -/
theorem W2_v1 (c : Dev nD) : W2 m ρ c (Proc.devRef .tc main_v1) = (dat0 (V1 m ρ) c).arrAt 3 cfg0.N := W2_arr m ρ c 3

/-! ## What the second kernel's windows read -/

theorem V5_v7 (c : Dev nD) :
    V5 m ρ c main_v7 = summed (m ((c : Thread nD τ).loc main_arg2)) ((dat0 (V1 m ρ) c).arrAt 3 cfg0.N) := by
  rw [← W2_arg2 m ρ c, ← W2_v1 m ρ c]
  show StableHlo.after hostOps1_2 (StableHlo.after hostOps1_1 (StableHlo.after hostOps1 (W2 m ρ c))) (Proc.devRef .tc main_v7) = _
  dsimp only [hostOps1, hostOps1_1, hostOps1_2]; after_results; rfl

theorem V5_v15 (c : Dev nD) : V5 m ρ c main_v15 = invc (m ((c : Thread nD τ).loc main_arg2)) := by
  rw [← W2_arg2 m ρ c]
  show StableHlo.after hostOps1_2 (StableHlo.after hostOps1_1 (StableHlo.after hostOps1 (W2 m ρ c))) (Proc.devRef .tc main_v15) = _
  dsimp only [hostOps1, hostOps1_1, hostOps1_2]; after_results; rfl

theorem V5_arg0 (c : Dev nD) : V5 m ρ c main_arg0 = m ((c : Thread nD τ).loc main_arg0) := by
  rw [← W2_arg0 m ρ c]
  show StableHlo.after hostOps1_2 (StableHlo.after hostOps1_1 (StableHlo.after hostOps1 (W2 m ρ c))) (Proc.devRef .tc main_arg0) = _
  dsimp only [hostOps1, hostOps1_1, hostOps1_2]; after_results

theorem V5_v16 (c : Dev nD) :
    V5 m ρ c main_v16 = extractStridedSlice S128x128 ![0, 0] (m ((c : Thread nD τ).loc main_arg5)) slices_S256x128_S128x128_0_0 := by
  rw [← W2_arg5 m ρ c]
  show StableHlo.after hostOps1_2 (StableHlo.after hostOps1_1 (StableHlo.after hostOps1 (W2 m ρ c))) (Proc.devRef .tc main_v16) = _
  dsimp only [hostOps1, hostOps1_1, hostOps1_2]; after_results

theorem V5_v17 (c : Dev nD) :
    V5 m ρ c main_v17 = extractStridedSlice S128x128 ![128, 0] (m ((c : Thread nD τ).loc main_arg5)) slices_S256x128_S128x128_128_0 := by
  rw [← W2_arg5 m ρ c]
  show StableHlo.after hostOps1_2 (StableHlo.after hostOps1_1 (StableHlo.after hostOps1 (W2 m ρ c))) (Proc.devRef .tc main_v17) = _
  dsimp only [hostOps1, hostOps1_1, hostOps1_2]; after_results

theorem V5_v18 (c : Dev nD) : V5 m ρ c main_v18 = shapeCast _ (m ((c : Thread nD τ).loc main_arg6)) shapeCasts_S128_S1x128 := by
  rw [← W2_arg6 m ρ c]
  show StableHlo.after hostOps1_2 (StableHlo.after hostOps1_1 (StableHlo.after hostOps1 (W2 m ρ c))) (Proc.devRef .tc main_v18) = _
  dsimp only [hostOps1, hostOps1_1, hostOps1_2]; after_results; rfl

end Cert.KernelIdeal.HostRead

end
-- ==== Proof.KRun.lean ====
/-
  The idealized kernel program's run, with its result array NAMED.

  The program is two kernel regions among stretches of host operations. Its generated frame walks the buffer
  contents from the launch memory through every stretch and region (W0 … W6) and keeps, of the last contents, only
  that the arguments are as launched. The same walk read at the result buffer as well says that every weakly fair
  execution ends with the result array holding W6 at that buffer: the last region's output after all its blocks
  were written back.
-/
import proofs.«109613_j47390669144619_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last
    boundary's contents and the arguments as launched. -/
theorem run : θ_run defs (onTc (τ := τ) (main (F := F))) ⟨m, fun _ => 0, ρ⟩ (fun r => ∀ c : Dev nD,
      r.2.mem ((c.tc : Thread nD τ).loc main_v19) = W6 m ρ c (Proc.devRef .tc main_v19)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v19 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c)⟩)

end Cert.KernelIdeal.RunValue

end
-- ==== Proof.Spec.lean ====
/-
  The mathematics both programs compute, on the extended reals, one ROW at a time.

  A node row x (128 entries) is sent to  relu (x · W + b): entry k is  max (∑ c, x c * W (c, k) + b k) 0.
  The rows are then summed per hyperedge (a scatter-add both programs spell the same way) and divided by the
  clamped member count; with that averaged row a and the hyperedge's own feature row h, the update is
  u k = max ((∑ c, a c * Wa (c, k) + ∑ c, h c * We (c, k)) + b k) 0, and the result row is u normalised by
  max (sqrt (∑ k, u k * u k)) eps.  Wa and We are the upper and lower halves of one 256 × 128 weight matrix, so
  the two sums together are the contraction of the joined row [a | h] with that matrix.

  Two laws join the programs' spellings, neither of which needs a finite value:
    * a sum over 256 = 128 + 128 indices is the sum of its two halves (addition is associative and commutative);
    * x * (1 / c) = x / c whenever c ≠ 0, and a count clamped below by 1 is never 0.
-/
import Idealize.ShloMosaic.PureOps.Ideal
import Idealize.ShloMosaic.PureOps.Ideal.Laws
import Idealize.ShloMosaic.Lib.ValueIdx
import Idealize.ShloMosaic.Lib.IdealHost

noncomputable section

open scoped BigOperators

namespace Cert.Hyper

open Idealize.ShloMosaic Idealize.ShloMosaic.ValueIdx

/-- The word of 0.0 and the word of the clamp 1e-12, as the extended reals they denote (never evaluated: the same
    words stand on both sides). -/
abbrev zero : EReal := Ideal.ofBits .f32 0x00000000#32
abbrev eps : EReal := Ideal.ofBits .f32 0x2B8CBCCC#32
abbrev one : EReal := Ideal.ofBits .f32 0x3F800000#32

abbrev Mat (a b : Nat) : Type := (⟨2, ![a, b]⟩ : Shape).Idx → EReal

/-- Entry k of relu (x · W + b) for a row x. -/
def nodeRow (x : Fin 128 → EReal) (W : Mat 128 128) (b : Mat 1 128) (k : Fin 128) : EReal :=
  max ((∑ c : Fin 128, x c * W (ix2 c k)) + b (ix2 (0 : Fin 1) k)) zero

/-- Entry k of relu (a · Wa + h · We + b) for an averaged row a and a feature row h. -/
def actRow (a h : Fin 128 → EReal) (Wa We : Mat 128 128) (b : Mat 1 128) (k : Fin 128) : EReal :=
  max (((∑ c : Fin 128, a c * Wa (ix2 c k)) + ∑ c : Fin 128, h c * We (ix2 c k)) + b (ix2 (0 : Fin 1) k)) zero

/-- Entry k of that row divided by its clamped Euclidean norm. -/
def updRow (a h : Fin 128 → EReal) (Wa We : Mat 128 128) (b : Mat 1 128) (k : Fin 128) : EReal :=
  Ideal.div (actRow a h Wa We b k)
    (max (Ideal.sqrt (∑ k' : Fin 128, actRow a h Wa We b k' * actRow a h Wa We b k')) eps)

/-- The node stage on a whole array of R rows. -/
def node {R : Nat} (X : Mat R 128) (W : Mat 128 128) (b : Mat 1 128) : Mat R 128 :=
  fun i => nodeRow (fun c => X (ix2 (i 0) c)) W b (i 1)

/-- The update stage on whole arrays of R rows. -/
def upd {R : Nat} (agg H : Mat R 128) (Wa We : Mat 128 128) (b : Mat 1 128) : Mat R 128 :=
  fun i => updRow (fun c => agg (ix2 (i 0) c)) (fun c => H (ix2 (i 0) c)) Wa We b (i 1)

theorem node_ix2 {R : Nat} (X : Mat R 128) (W : Mat 128 128) (b : Mat 1 128) (r : Fin R) (k : Fin 128) :
    node X W b (ix2 r k) = nodeRow (fun c => X (ix2 r c)) W b k := rfl

theorem upd_ix2 {R : Nat} (agg H : Mat R 128) (Wa We : Mat 128 128) (b : Mat 1 128) (r : Fin R) (k : Fin 128) :
    upd agg H Wa We b (ix2 r k) = updRow (fun c => agg (ix2 r c)) (fun c => H (ix2 r c)) Wa We b k := rfl

/-! ## The two laws -/

/-- A sum over 256 indices is the sum over the first 128 plus the sum over the last 128. -/
theorem sum_256_split {M : Type*} [AddCommMonoid M] (f : Fin 256 → M) :
    ∑ k : Fin 256, f k
      = (∑ k : Fin 128, f ⟨k.val, by have := k.isLt; omega⟩) + ∑ k : Fin 128, f ⟨128 + k.val, by have := k.isLt; omega⟩ := by
  exact Fin.sum_univ_add (a := 128) (b := 128) f

/-- Multiplying by the reciprocal of a nonzero c is dividing by c, on every extended real x. -/
theorem mul_one_div (x c : EReal) (hc : c ≠ 0) : x * Ideal.div 1 c = Ideal.div x c := by
  unfold Ideal.div
  rw [if_neg hc, if_neg hc, one_mul]

/-- A value clamped below by the word of 1.0 is not 0. -/
theorem clamp_ne_zero (y : EReal) : max one y ≠ 0 := by
  have h1 : (0 : EReal) < max one y := lt_of_lt_of_le (by rw [show one = 1 from Ideal.ofBits_one_f32]; exact zero_lt_one) (le_max_left _ _)
  exact ne_of_gt h1

end Cert.Hyper

end
-- ==== Proof.LibMatmulNN.lean ====
/-
  A plain matrix product read at an index, at the ideal values.

  For an M×K matrix A and a K×N matrix B, the product that contracts axis 1 of A with axis 0 of B (dimension numbers
  [1], [0], [0], [1], no batch axis: A · B) has at (a, b) the entry

      acc (a, b) + ∑ c < K, A (a, c) · B (c, b)

  on the extended reals, and just the sum when the accumulator is the zero splat. The index of the contraction is
  the one coordinate c; the operand indices at output (a, b) and contraction position c are (a, c) and (c, b).
-/
import Idealize.ShloMosaic.Lib.ValueIdx
import Idealize.ShloMosaic.PureOps.Ideal.Laws

noncomputable section

open scoped BigOperators

namespace Idealize.ShloMosaic.MatmulNN

open Idealize.ShloMosaic Idealize.ShloMosaic.ValueIdx

variable {M K N : Nat}

/-- The left operand's index at output (a, b) and contraction position c is (a, c). -/
theorem lhsIdx_plain (a : Fin M) (b : Fin N) (c : Fin K) :
    (DotDims.plain M K N).lhsIdx (ix2 a b) ((contrEquiv1 (DotDims.plain M K N) K rfl rfl).symm c) = ix2 a c := by
  have c2 := contrEquiv1_symm_val (DotDims.plain M K N) K rfl rfl c
  funext ax; apply Fin.ext
  match ax with
  | ⟨0, _⟩ => simp [DotDims.lhsIdx, DotDims.plain]; rfl
  | ⟨1, _⟩ => simp [DotDims.lhsIdx, DotDims.plain]; exact c2

/-- The right operand's index at output (a, b) and contraction position c is (c, b). -/
theorem rhsIdx_plain (a : Fin M) (b : Fin N) (c : Fin K) :
    (DotDims.plain M K N).rhsIdx (ix2 a b) ((contrEquiv1 (DotDims.plain M K N) K rfl rfl).symm c) = ix2 c b := by
  have c2 := contrEquiv1_symm_val (DotDims.plain M K N) K rfl rfl c
  funext ax; apply Fin.ext
  match ax with
  | ⟨0, _⟩ => simp [DotDims.rhsIdx, DotDims.plain]; exact c2
  | ⟨1, _⟩ => simp [DotDims.rhsIdx, DotDims.plain]; rfl

/-- A · B accumulated onto `acc`, at (a, b): the accumulator's entry plus the sum over the contracted coordinate. -/
theorem matmul_apply {φ₁ φ₂ : FTy} (prec : Option ContractPrecision)
    (A : FVec Ideal ⟨2, ![M, K]⟩ φ₁) (B : FVec Ideal ⟨2, ![K, N]⟩ φ₂) (acc : FVec Ideal ⟨2, ![M, N]⟩ .f32) (a : Fin M) (b : Fin N) :
    FloatOps.matmul (DotDims.plain M K N) prec A B acc (ix2 a b)
      = acc (ix2 a b) + ∑ c : Fin K, A (ix2 a c) * B (ix2 c b) := by
  rw [Ideal.matmul_apply, ← Equiv.sum_comp (contrEquiv1 (DotDims.plain M K N) K rfl rfl).symm]
  refine congrArg (acc (ix2 a b) + ·) (Finset.sum_congr rfl fun c _ => ?_)
  rw [lhsIdx_plain, rhsIdx_plain]

/-- A · B into the zero splat, at (a, b): the sum over the contracted coordinate. -/
theorem matmul_zero_apply {φ₁ φ₂ : FTy} (prec : Option ContractPrecision)
    (A : FVec Ideal ⟨2, ![M, K]⟩ φ₁) (B : FVec Ideal ⟨2, ![K, N]⟩ φ₂) (a : Fin M) (b : Fin N) :
    FloatOps.matmul (DotDims.plain M K N) prec A B (constant ⟨2, ![M, N]⟩ .f32 0x00000000#32) (ix2 a b)
      = ∑ c : Fin K, A (ix2 a c) * B (ix2 c b) := by
  rw [Ideal.matmul_constant_zero_apply, ← Equiv.sum_comp (contrEquiv1 (DotDims.plain M K N) K rfl rfl).symm]
  refine Finset.sum_congr rfl fun c _ => ?_
  rw [lhsIdx_plain, rhsIdx_plain]

end Idealize.ShloMosaic.MatmulNN

end
-- ==== Proof.Region0.lean ====
/-
  What the first kernel leaves in its result array, on the extended reals.

  The kernel runs over 100 grid points. Point t takes rows 10000 t … 10000 t + 9999 of the node array X
  (1,000,000 × 128), the whole weight matrix W (128 × 128) and the bias row b (1 × 128), and stores

      max (x · W + b) 0        for each of its rows x

  into the same rows of the result array. Read entry by entry, (p, q) of the stored block is
  max (∑ k, x_p k * W (k, q) + b (0, q)) 0, the specification's nodeRow of row p: on the extended reals the
  roundings to the narrow float format on the way into the product and on the way out are the identity, the
  product into the zero splat is the plain sum over the contracted coordinate, and the bias row broadcast over
  the rows reads its one row.

  Row r of the array lies in the block of point r / 10000, every point writes its block back, and a block's
  entry (p, q) sits at (10000 t + p, q) of the array; so the blocks cover the array and it ends holding the
  specification's node stage of X, W and b as the kernel found them.
-/
import proofs.«109613_j47390669144619_2_alg».proof.Proof.Gen.KernelIdeal.Frame
import proofs.«109613_j47390669144619_2_alg».proof.Proof.Spec
import proofs.«109613_j47390669144619_2_alg».proof.Proof.LibMatmulNN
import Idealize.ShloMosaic.Lib.Pipeline.Value
import Idealize.ShloMosaic.Lib.ValueLayout
import Idealize.ShloMosaic.Lib.Tactic

noncomputable section

open Idealize.ShloMosaic Idealize.ShloMosaic.TcCoe Idealize.SL.Sem
open Idealize.ShloMosaic.Pipeline (Dat)
open scoped BigOperators

namespace Cert.KernelIdeal.Region0

open Cert.KernelIdeal Cert.KernelIdeal.Gen Idealize.ShloMosaic.ValueIdx

variable (V : (c : Dev nD) → (b : Ref sig .tc) → Buf (Elt Ideal) ((c : Thread nD τ).loc b))

/-! ## The body's arithmetic at one entry -/

/-- The contraction's dimension numbers are those of a plain matrix product A · B. -/
theorem dot_plain : dot_S10000x128_S128x128_S10000x128_1_0_0_1_n_n = DotDims.plain 10000 128 128 := rfl

/-- Entry (p, q) of what the body stores: row p of the block times the weight matrix, plus the bias row, clamped
    below by zero. On the extended reals the two roundings on the way into the product and the one on the way
    out are the identity. -/
theorem payload_apply (x0 : Vec Ideal S10000x128 .f32) (x1 : Vec Ideal S128x128 .f32) (x2 : Vec Ideal S1x128 .f32)
    (p : Fin 10000) (q : Fin 128) :
    k0_pay1 (F := Ideal) x0 x1 x2 (ix2 p q) = Cert.Hyper.nodeRow (fun c => x0 (ix2 p c)) x1 x2 q := by
  unfold k0_pay1 Cert.Hyper.nodeRow
  dsimp only
  rw [truncf_apply, maximumf_apply, addf_apply, broadcast_apply]
  refine congrArg₂ max (congrArg₂ (· + ·) ?_ ?_) rfl
  · rw [dot_plain]
    exact MatmulNN.matmul_zero_apply none (truncf .bf16 x0 bitsLt_bf16_f32) (truncf .bf16 x1 bitsLt_bf16_f32) p q
  · rw [broadcastTo_1b_ab_apply, shapeCast_self]

/-! ## The blocks the body reads, as entries of the arrays -/

theorem hz : (![0, 0] : Fin 2 → Nat) = fun _ => 0 := funext fun a => by fin_cases a <;> rfl

/-- The block indices over the grid: the row blocks of the node array and of the result move with the point,
    on the column axis and for the weight matrix and the bias row the block index is always 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Entry (p, q) of the node block at point t is entry (10000 t + p, q) of the node array. -/
theorem blk0_apply (c : Dev nD) (t : Fin cfg0.N) (p : Fin 10000) (q : Fin 128) (r : Fin 1000000)
    (hr : r.val = t.val * 10000 + p.val) :
    (iblk0 (F := Ideal) V c 0 t : Vec Ideal S10000x128 .f32) (ix2 p q)
      = (V c main_arg1 : S1000000x128.Idx → EReal) (ix2 r q) := by
  obtain ⟨e0, e1, -⟩ := idx_facts t
  unfold iblk0
  rw [View.read_apply]
  show V c main_arg1 _ = V c main_arg1 _
  refine congrArg _ ?_
  funext a; apply Fin.ext
  match a with
  | ⟨0, _⟩ => show win0_0.index t (0 : Fin 2) * 10000 + 1 * p.val = r.val; rw [e0, hr]; omega
  | ⟨1, _⟩ => show win0_0.index t (1 : Fin 2) * 128 + 1 * q.val = q.val; rw [e1]; omega

/-- The weight block at every point is the whole weight matrix. -/
theorem blk1_apply (c : Dev nD) (t : Fin cfg0.N) (p : Fin 128) (q : Fin 128) :
    (iblk0 (F := Ideal) V c 1 t : Vec Ideal S128x128 .f32) (ix2 p q)
      = (V c main_arg3 : S128x128.Idx → EReal) (ix2 p q) := by
  obtain ⟨-, -, e0, e1, -⟩ := idx_facts t
  unfold iblk0
  rw [View.read_apply]
  show V c main_arg3 _ = V c main_arg3 _
  refine congrArg _ ?_
  funext a; apply Fin.ext
  match a with
  | ⟨0, _⟩ => show win0_1.index t (0 : Fin 2) * 128 + 1 * p.val = p.val; rw [e0]; omega
  | ⟨1, _⟩ => show win0_1.index t (1 : Fin 2) * 128 + 1 * q.val = q.val; rw [e1]; omega

/-- The bias block at every point is the whole bias row. -/
theorem blk2_apply (c : Dev nD) (t : Fin cfg0.N) (p : Fin 1) (q : Fin 128) :
    (iblk0 (F := Ideal) V c 2 t : Vec Ideal S1x128 .f32) (ix2 p q)
      = (V c main_v0 : S1x128.Idx → EReal) (ix2 p q) := by
  obtain ⟨-, -, -, -, e0, e1, -⟩ := idx_facts t
  unfold iblk0
  rw [View.read_apply]
  show V c main_v0 _ = V c main_v0 _
  refine congrArg _ ?_
  funext a; apply Fin.ext
  match a with
  | ⟨0, _⟩ => show win0_2.index t (0 : Fin 2) * 1 + 1 * p.val = p.val; rw [e0]; omega
  | ⟨1, _⟩ => show win0_2.index t (1 : Fin 2) * 128 + 1 * q.val = q.val; rw [e1]; omega

theorem blk1_eq (c : Dev nD) (t : Fin cfg0.N) :
    (iblk0 (F := Ideal) V c 1 t : Vec Ideal S128x128 .f32) = (V c main_arg3 : S128x128.Idx → EReal) := by
  funext j
  obtain ⟨p, q, rfl⟩ : ∃ (p : Fin 128) (q : Fin 128), j = ix2 p q := ⟨j 0, j 1, eq_ix2 j⟩
  exact blk1_apply V c t p q

theorem blk2_eq (c : Dev nD) (t : Fin cfg0.N) :
    (iblk0 (F := Ideal) V c 2 t : Vec Ideal S1x128 .f32) = (V c main_v0 : S1x128.Idx → EReal) := by
  funext j
  obtain ⟨p, q, rfl⟩ : ∃ (p : Fin 1) (q : Fin 128), j = ix2 p q := ⟨j 0, j 1, eq_ix2 j⟩
  exact blk2_apply V c t p q

/-! ## What each point writes back -/

/-- Entry (p, q) of the result block at point t sits at entry (10000 t + p, q) of the result array. -/
theorem emb3 (t : Fin cfg0.N) (p : Fin 10000) (q : Fin 128) (r : Fin 1000000) (hr : r.val = t.val * 10000 + p.val) :
    ((cfg0.win 3).blk t).view.emb (ix2 p q) = (ix2 r q : S1000000x128.Idx) := by
  obtain ⟨-, -, -, -, -, -, e0, e1⟩ := idx_facts t
  funext a; apply Fin.ext
  match a with
  | ⟨0, _⟩ => show win0_3.index t (0 : Fin 2) * 10000 + 1 * p.val = r.val; rw [e0, hr]; omega
  | ⟨1, _⟩ => show win0_3.index t (1 : Fin 2) * 128 + 1 * q.val = q.val; rw [e1]; omega

/-- Point t writes back rows 10000 t … 10000 t + 9999 of the node stage of the three arrays. -/
theorem flushed_eq (c : Dev nD) (t : Fin cfg0.N) :
    (dat0 (F := Ideal) V c).flushed 3 t = ((cfg0.win 3).blk t).view.read (Elt Ideal)
      (Cert.Hyper.node (V c main_arg1 : S1000000x128.Idx → EReal) (V c main_arg3 : S128x128.Idx → EReal) (V c main_v0 : S1x128.Idx → EReal)) := by
  show (cfg0.win 3).cut (grid0.coords t) ((dat0 V c).after 3 t) = _
  rw [after0_3]
  unfold out0_3
  rw [View.canon_unit_zero hz]
  simp only [View.ld_unit_zero (S := S10000x128) hz, View.ld_unit_zero (S := S128x128) hz, View.ld_unit_zero (S := S1x128) hz]
  rw [blk1_eq, blk2_eq]
  refine funext fun (j : S10000x128.Idx) => ?_
  obtain ⟨p, q, rfl⟩ : ∃ (p : Fin 10000) (q : Fin 128), j = ix2 p q := ⟨j 0, j 1, eq_ix2 j⟩
  have hlt : t.val * 10000 + p.val < 1000000 := by
    have h1 : t.val < 100 := lt_of_lt_of_eq t.isLt N_0
    have h2 : p.val < 10000 := p.isLt
    omega
  show k0_pay1 (F := Ideal) (iblk0 V c 0 t) (V c main_arg3) (V c main_v0) (ix2 p q)
    = Cert.Hyper.node (V c main_arg1 : S1000000x128.Idx → EReal) (V c main_arg3 : S128x128.Idx → EReal) (V c main_v0 : S1x128.Idx → EReal)
        (((cfg0.win 3).blk t).view.emb (ix2 p q))
  rw [emb3 t p q ⟨t.val * 10000 + p.val, hlt⟩ rfl, Cert.Hyper.node_ix2]
  refine (payload_apply _ _ _ p q).trans ?_
  exact congrArg (fun x => Cert.Hyper.nodeRow x _ _ q) (funext fun k => blk0_apply V c t p k ⟨t.val * 10000 + p.val, hlt⟩ rfl)

/-! ## The blocks cover the array -/

/-- An entry of the result array is in point t's block iff each coordinate is in the block's range on its axis. -/
theorem mem_blk (t : Fin cfg0.N) (i : S1000000x128.Idx) :
    i ∈ ((cfg0.win 3).blk t).view.set ↔ ∀ a : Fin 2, win0_3.index t a * S10000x128.size a ≤ (i a).val
      ∧ (i a).val < win0_3.index t a * S10000x128.size a + S10000x128.size a := by
  show i ∈ ((View.whole main_v1).slice (win0_3.rect t)).set ↔ _
  rw [View.set_slice_whole, Rect.mem_set_unit]
  exact Iff.rfl

/-- Row r of the result array is written back by point r / 10000. -/
theorem cover (i : S1000000x128.Idx) :
    ∃ t : Fin cfg0.N, (cfg0.win 3).flush t = true ∧ i ∈ ((cfg0.win 3).blk t).view.set := by
  have h0 : (i 0).val < 1000000 := (i 0).isLt
  have h1 : (i 1).val < 128 := (i 1).isLt
  obtain ⟨t, ht⟩ : ∃ t : Fin cfg0.N, t.val = (i 0).val / 10000 :=
    ⟨⟨(i 0).val / 10000, lt_of_lt_of_eq (by omega : (i 0).val / 10000 < 100) N_0.symm⟩, rfl⟩
  obtain ⟨-, -, -, -, -, -, e0, e1⟩ := idx_facts t
  refine ⟨t, flush0_3 t, ?_⟩
  rw [mem_blk]
  intro a
  match a with
  | ⟨0, _⟩ =>
    show win0_3.index t (0 : Fin 2) * 10000 ≤ (i 0).val ∧ (i 0).val < win0_3.index t (0 : Fin 2) * 10000 + 10000
    rw [e0, ht]; omega
  | ⟨1, _⟩ =>
    show win0_3.index t (1 : Fin 2) * 128 ≤ (i 1).val ∧ (i 1).val < win0_3.index t (1 : Fin 2) * 128 + 128
    rw [e1]; omega

/-! ## The array the first kernel leaves -/

/-- After the last point the result array holds the node stage of the node array, the weight matrix and the bias
    row as the kernel found them: every row relu (x · W + b). -/
theorem final0 (c : Dev nD) :
    (dat0 (F := Ideal) V c).arrAt 3 cfg0.N
      = Cert.Hyper.node (V c main_arg1 : S1000000x128.Idx → EReal) (V c main_arg3 : S128x128.Idx → EReal) (V c main_v0 : S1x128.Idx → EReal) :=
  (dat0 (F := Ideal) V c).arrAt_eq_of_cover 3 _ (fun t _ => flushed_eq V c t) cover

end Cert.KernelIdeal.Region0

end
-- ==== Proof.LibColumn.lean ====
/-
  Column layouts read at an index, over any extents and any element type.

  A row statistic (a maximum, a sum) of an a × b matrix is a vector of a entries; to combine it with the
  matrix again it is first re-laid as an a × 1 column and then repeated along the second axis. Read at (i, j)
  the result is the vector's entry i, whatever j: the two lemmas below say so, one per step.
-/
import Idealize.ShloMosaic.Lib.ValueIdx
import Idealize.ShloMosaic.Lib.Pipeline.Value

namespace Cert.Lib.Column

open Idealize.ShloMosaic Idealize.ShloMosaic.ValueIdx

variable {α : Type}

/-- A vector of `a` entries cast to an `a × 1` column reads, at `(i, u)`, the vector's entry `i`: both indices sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(i, j)`, the column's entry `i`: the unit axis is read at `0`,
    the other axis at the result's own coordinate. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- The two steps together: a vector re-laid as a column and repeated along a second axis reads, at `(i, j)`, the
    vector's entry `i`. -/
theorem broadcastTo_shapeCast_column_apply {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (i : Fin a) (j : Fin b) :
    broadcastTo ⟨2, ![a, b]⟩ (shapeCast ⟨2, ![a, 1]⟩ x hc) hb (ix2 i j) = x (ix1 i) := by
  rw [broadcastTo_a1_ab_apply, shapeCast_a_a1_apply]

end Cert.Lib.Column
-- ==== Proof.Region1.lean ====
/-
  What the second kernel leaves in its output array.

  The grid has 20 points; point t takes rows 5000·t … 5000·t + 4999 of the summed rows, of the reciprocal-count
  column and of the hyperedge features, the two 128 × 128 halves of the update matrix and the bias row, and stores
  into the same rows of the output, for row r and column k,

      u k / max (sqrt (∑ k', u k' * u k')) eps,   u k = max ((∑ c, (s c * inv) * Wa (c, k) + ∑ c, h c * We (c, k)) + b k) 0,

  where s is row r of the summed rows, inv the row's reciprocal count and h the row's features. An entry of a block
  is the same function of the block's row as the entry of the whole array is of the array's row, the blocks tile
  the array by rows, so the array ends holding that function of the arrays the region found.
-/
import proofs.«109613_j47390669144619_2_alg».proof.Proof.Gen.KernelIdeal.Frame
import proofs.«109613_j47390669144619_2_alg».proof.Proof.Spec
import proofs.«109613_j47390669144619_2_alg».proof.Proof.LibMatmulNN
import proofs.«109613_j47390669144619_2_alg».proof.Proof.LibColumn
import Idealize.ShloMosaic.Lib.Pipeline.Value
import Idealize.ShloMosaic.Lib.ValueLayout
import Idealize.ShloMosaic.Lib.Tactic
import Idealize.ShloMosaic.PureOps.Ideal.Laws

set_option maxRecDepth 16384

noncomputable section

open scoped BigOperators

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-! ## The body's value at an index -/

/-- The row sum of squares: a sum over the lane axis of a 5000 × 128 block, read at row p. -/
theorem rowsum_apply (y : FVec Ideal S5000x128 .f32) (hacc : (0x00000000#32 : BitVec 32) = 0x00000000#32) (p : Fin 5000) :
    multiReduction (F := Ideal) .add [1] S5000 y 0x00000000#32 reduces_S5000x128_S5000 (.inl rfl) hacc (ix1 p)
      = ∑ k : Fin 128, y (ix2 p k) := by
  refine (Ideal.multiReduction_add_single y 0x00000000#32 reduces_S5000x128_S5000 (.inl rfl) hacc (ix1 p)).trans ?_
  refine Finset.sum_congr rfl fun k _ => ?_
  exact congrArg y (funext fun a => Fin.ext (by match a with | ⟨0, _⟩ => rfl | ⟨1, _⟩ => rfl))

/-- The block of activations u: the body's value before the normalisation, as the body spells it. -/
def act (x0 : FVec Ideal S5000x128 .f32) (x1 : FVec Ideal S5000x1 .f32) (x2 : FVec Ideal S5000x128 .f32)
    (x3 x4 : FVec Ideal S128x128 .f32) (x5 : FVec Ideal S1x128 .f32) : FVec Ideal S5000x128 .f32 :=
  maximumf
    (addf
      (addf
        (matmul dot_S5000x128_S128x128_S5000x128_1_0_0_1_n_n none
          (truncf .bf16 (mulf (shapeCast S5000x128 x0 shapeCasts_S5000x128_S5000x128)
            (broadcastTo S5000x128 (shapeCast S5000x1 x1 shapeCasts_S5000x1_S5000x1) broadcasts_S5000x1_S5000x128)) bitsLt_bf16_f32)
          (truncf .bf16 (shapeCast S128x128 x3 shapeCasts_S128x128_S128x128) bitsLt_bf16_f32)
          (constant S5000x128 .f32 0x00000000#32))
        (matmul dot_S5000x128_S128x128_S5000x128_1_0_0_1_n_n none
          (truncf .bf16 x2 bitsLt_bf16_f32)
          (truncf .bf16 (shapeCast S128x128 x4 shapeCasts_S128x128_S128x128) bitsLt_bf16_f32)
          (constant S5000x128 .f32 0x00000000#32)))
      (broadcastTo S5000x128 (shapeCast S1x128 x5 shapeCasts_S1x128_S1x128) broadcasts_S1x128_S5000x128))
    (broadcast S5000x128 (Scalar.ofBits .f32 0x00000000#32))

/-- A block of rows divided by their clamped Euclidean norms, as the body spells it. -/
def normalise (u : FVec Ideal S5000x128 .f32) : FVec Ideal S5000x128 .f32 :=
  divf u
    (broadcastTo S5000x128
      (maximumf
        (sqrt (shapeCast S5000x1
          (multiReduction .add [1] S5000 (mulf u u) 0x00000000#32 reduces_S5000x128_S5000 (.inl rfl) rfl) shapeCasts_S5000_S5000x1))
        (broadcast S5000x1 (Scalar.ofBits .f32 0x2B8CBCCC#32)))
      broadcasts_S5000x1_S5000x128)

/-- The body's one stored value is the normalised block of activations. -/
theorem pay_eq (x0 : FVec Ideal S5000x128 .f32) (x1 : FVec Ideal S5000x1 .f32) (x2 : FVec Ideal S5000x128 .f32)
    (x3 x4 : FVec Ideal S128x128 .f32) (x5 : FVec Ideal S1x128 .f32) :
    k1_pay1 x0 x1 x2 x3 x4 x5 = normalise (act x0 x1 x2 x3 x4 x5) := rfl

/-- The matrix products' dimension record is the plain M × K by K × N one. -/
theorem dot_plain : dot_S5000x128_S128x128_S5000x128_1_0_0_1_n_n = DotDims.plain 5000 128 128 := rfl

/-- An activation: entry (p, q) of the block is the specification's entry q of row p's data. -/
theorem act_apply (x0 : FVec Ideal S5000x128 .f32) (x1 : FVec Ideal S5000x1 .f32) (x2 : FVec Ideal S5000x128 .f32)
    (x3 x4 : FVec Ideal S128x128 .f32) (x5 : FVec Ideal S1x128 .f32) (p : Fin 5000) (q : Fin 128) :
    act x0 x1 x2 x3 x4 x5 (ix2 p q)
      = Cert.Hyper.actRow (fun c => x0 (ix2 p c) * x1 (ix2 p (0 : Fin 1))) (fun c => x2 (ix2 p c)) x3 x4 x5 q := by
  unfold act Cert.Hyper.actRow
  rw [dot_plain]
  refine congrArg₂ max (congrArg₂ (· + ·) (congrArg₂ (· + ·) ?_ ?_) ?_) rfl
  · refine (MatmulNN.matmul_zero_apply none _ _ p q).trans (Finset.sum_congr rfl fun c _ => ?_)
    refine congrArg₂ (· * ·) (congrArg₂ (· * ·) (congrFun (shapeCast_self x0 _) _) ?_) (congrFun (shapeCast_self x3 _) _)
    exact (Cert.Lib.Column.broadcastTo_a1_ab_apply _ _ p c).trans (congrFun (shapeCast_self x1 _) _)
  · refine (MatmulNN.matmul_zero_apply none _ _ p q).trans (Finset.sum_congr rfl fun c _ => ?_)
    exact congrArg₂ (· * ·) rfl (congrFun (shapeCast_self x4 _) _)
  · exact (broadcastTo_1b_ab_apply _ _ p q).trans (congrFun (shapeCast_self x5 _) _)

/-- A normalised block at (p, q): the entry over the clamped norm of its row. -/
theorem normalise_apply (u : FVec Ideal S5000x128 .f32) (p : Fin 5000) (q : Fin 128) :
    normalise u (ix2 p q)
      = Ideal.div (u (ix2 p q)) (max (Ideal.sqrt (∑ k : Fin 128, u (ix2 p k) * u (ix2 p k))) Cert.Hyper.eps) := by
  unfold normalise
  refine congrArg (Ideal.div (u (ix2 p q))) ?_
  refine (Cert.Lib.Column.broadcastTo_a1_ab_apply _ _ p q).trans ?_
  refine congrArg₂ max (congrArg Ideal.sqrt ?_) rfl
  exact (Cert.Lib.Column.shapeCast_a_a1_apply _ _ p (0 : Fin 1)).trans (rowsum_apply (mulf u u) rfl p)

/-- The body's stored value at (p, q) is the specification's entry q of row p's data. -/
theorem pay_apply (x0 : FVec Ideal S5000x128 .f32) (x1 : FVec Ideal S5000x1 .f32) (x2 : FVec Ideal S5000x128 .f32)
    (x3 x4 : FVec Ideal S128x128 .f32) (x5 : FVec Ideal S1x128 .f32) (p : Fin 5000) (q : Fin 128) :
    (k1_pay1 (F := Ideal) x0 x1 x2 x3 x4 x5 : S5000x128.Idx → EReal) (ix2 p q)
      = Cert.Hyper.updRow (fun c => x0 (ix2 p c) * x1 (ix2 p (0 : Fin 1))) (fun c => x2 (ix2 p c)) x3 x4 x5 q := by
  rw [pay_eq, normalise_apply]
  unfold Cert.Hyper.updRow
  simp only [act_apply]

/-! ## From blocks to the array -/

section Blocks

variable (V : (c : Dev nD) → (b : Ref sig .tc) → Buf (Elt Ideal) ((c : Thread nD τ).loc b))

/-- The printed index maps over the grid: the row-blocked windows sit at block (t, 0), the others at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The array the region leaves: the specification's update of the arrays the region found, the averaged row being
    the summed row times the row's reciprocal count. -/
def updOf (S : S100000x128.Idx → EReal) (inv : S100000x1.Idx → EReal) (H : S100000x128.Idx → EReal)
    (Wa We : S128x128.Idx → EReal) (b : S1x128.Idx → EReal) : S100000x128.Idx → EReal :=
  Cert.Hyper.upd (fun i => S i * inv (ix2 (i 0) (0 : Fin 1))) H Wa We b

/-- That function of the arrays the region found. -/
def G (c : Dev nD) : S100000x128.Idx → EReal :=
  updOf (V c main_v7) (V c main_v15) (V c main_arg0) (V c main_v16) (V c main_v17) (V c main_v18)

/-- An entry of a block is the array function's entry when the block's row carries the array row's data. -/
theorem blk_eq (S : S100000x128.Idx → EReal) (inv : S100000x1.Idx → EReal) (H : S100000x128.Idx → EReal)
    (Wa We : S128x128.Idx → EReal) (b : S1x128.Idx → EReal)
    (x0 : FVec Ideal S5000x128 .f32) (x1 : FVec Ideal S5000x1 .f32) (x2 : FVec Ideal S5000x128 .f32)
    (p : Fin 5000) (q : Fin 128) (e : Fin 100000)
    (h0 : ∀ c : Fin 128, x0 (ix2 p c) = S (ix2 e c)) (h1 : x1 (ix2 p (0 : Fin 1)) = inv (ix2 e (0 : Fin 1)))
    (h2 : ∀ c : Fin 128, x2 (ix2 p c) = H (ix2 e c)) :
    (k1_pay1 (F := Ideal) x0 x1 x2 Wa We b : S5000x128.Idx → EReal) (ix2 p q) = updOf S inv H Wa We b (ix2 e q) := by
  rw [pay_apply]
  unfold updOf
  rw [Cert.Hyper.upd_ix2]
  have ea : (fun c : Fin 128 => x0 (ix2 p c) * x1 (ix2 p (0 : Fin 1)))
      = fun c : Fin 128 => (fun i : S100000x128.Idx => S i * inv (ix2 (i 0) (0 : Fin 1))) (ix2 e c) :=
    funext fun c => by rw [h0 c, h1]
  rw [ea, funext h2]

/-- The same with the two indices given whole: the block index y and the array index i in the same column, the data
    of y's row that of i's row. -/
theorem blk_eq' (S : S100000x128.Idx → EReal) (inv : S100000x1.Idx → EReal) (H : S100000x128.Idx → EReal)
    (Wa We : S128x128.Idx → EReal) (b : S1x128.Idx → EReal)
    (x0 : FVec Ideal S5000x128 .f32) (x1 : FVec Ideal S5000x1 .f32) (x2 : FVec Ideal S5000x128 .f32)
    (y : S5000x128.Idx) (i : S100000x128.Idx) (hq : (i 1).val = (y 1).val)
    (h0 : ∀ c : Fin 128, x0 (ix2 (y 0) c) = S (ix2 (i 0) c)) (h1 : x1 (ix2 (y 0) (0 : Fin 1)) = inv (ix2 (i 0) (0 : Fin 1)))
    (h2 : ∀ c : Fin 128, x2 (ix2 (y 0) c) = H (ix2 (i 0) c)) :
    (k1_pay1 (F := Ideal) x0 x1 x2 Wa We b : S5000x128.Idx → EReal) y = updOf S inv H Wa We b i := by
  obtain ⟨p, q, rfl⟩ : ∃ (p : Fin 5000) (q : Fin 128), y = ix2 p q := ⟨y 0, y 1, eq_ix2 y⟩
  obtain ⟨e, k, rfl⟩ : ∃ (e : Fin 100000) (k : Fin 128), i = ix2 e k := ⟨i 0, i 1, eq_ix2 i⟩
  obtain rfl : k = q := Fin.ext hq
  exact blk_eq S inv H Wa We b x0 x1 x2 p k e h0 h1 h2

/-- A window's block at a point, read at a block index, is its array at the block's offset plus that index. -/
theorem iblk_rows0 (c : Dev nD) (t : Fin cfg1.N) (y : S5000x128.Idx) (i : S100000x128.Idx)
    (h0 : (i 0).val = t.val * 5000 + (y 0).val) (h1 : (i 1).val = (y 1).val) :
    (iblk1 V c 0 t : S5000x128.Idx → EReal) y = (V c main_v7 : S100000x128.Idx → EReal) i := by
  obtain ⟨e0, e1, -⟩ := idx_facts t
  unfold iblk1
  rw [View.read_apply]
  show V c main_v7 _ = V c main_v7 _
  congr 1
  funext a
  apply Fin.ext
  match a with
  | ⟨0, _⟩ => show win1_0.index t (0 : Fin 2) * 5000 + 1 * (y 0).val = (i 0).val; rw [e0, h0]; omega
  | ⟨1, _⟩ => show win1_0.index t (1 : Fin 2) * 128 + 1 * (y 1).val = (i 1).val; rw [e1, h1]; omega

theorem iblk_rows1 (c : Dev nD) (t : Fin cfg1.N) (y : S5000x1.Idx) (i : S100000x1.Idx)
    (h0 : (i 0).val = t.val * 5000 + (y 0).val) :
    (iblk1 V c 1 t : S5000x1.Idx → EReal) y = (V c main_v15 : S100000x1.Idx → EReal) i := by
  obtain ⟨-, -, e0, e1, -⟩ := idx_facts t
  unfold iblk1
  rw [View.read_apply]
  show V c main_v15 _ = V c main_v15 _
  congr 1
  funext a
  apply Fin.ext
  have hy : (y 1).val < 1 := (y 1).isLt
  have hi : (i 1).val < 1 := (i 1).isLt
  match a with
  | ⟨0, _⟩ => show win1_1.index t (0 : Fin 2) * 5000 + 1 * (y 0).val = (i 0).val; rw [e0, h0]; omega
  | ⟨1, _⟩ => show win1_1.index t (1 : Fin 2) * 1 + 1 * (y 1).val = (i 1).val; rw [e1]; omega

theorem iblk_rows2 (c : Dev nD) (t : Fin cfg1.N) (y : S5000x128.Idx) (i : S100000x128.Idx)
    (h0 : (i 0).val = t.val * 5000 + (y 0).val) (h1 : (i 1).val = (y 1).val) :
    (iblk1 V c 2 t : S5000x128.Idx → EReal) y = (V c main_arg0 : S100000x128.Idx → EReal) i := by
  obtain ⟨-, -, -, -, e0, e1, -⟩ := idx_facts t
  unfold iblk1
  rw [View.read_apply]
  show V c main_arg0 _ = V c main_arg0 _
  congr 1
  funext a
  apply Fin.ext
  match a with
  | ⟨0, _⟩ => show win1_2.index t (0 : Fin 2) * 5000 + 1 * (y 0).val = (i 0).val; rw [e0, h0]; omega
  | ⟨1, _⟩ => show win1_2.index t (1 : Fin 2) * 128 + 1 * (y 1).val = (i 1).val; rw [e1, h1]; omega

/-- The unblocked windows hold their whole arrays at every point. -/
theorem iblk_whole3 (c : Dev nD) (t : Fin cfg1.N) : (iblk1 V c 3 t : S128x128.Idx → EReal) = (V c main_v16 : S128x128.Idx → EReal) := by
  obtain ⟨-, -, -, -, -, -, e0, e1, -⟩ := idx_facts t
  funext y
  unfold iblk1
  rw [View.read_apply]
  show V c main_v16 _ = V c main_v16 _
  congr 1
  funext a
  apply Fin.ext
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

theorem iblk_whole4 (c : Dev nD) (t : Fin cfg1.N) : (iblk1 V c 4 t : S128x128.Idx → EReal) = (V c main_v17 : S128x128.Idx → EReal) := by
  obtain ⟨-, -, -, -, -, -, -, -, e0, e1, -⟩ := idx_facts t
  funext y
  unfold iblk1
  rw [View.read_apply]
  show V c main_v17 _ = V c main_v17 _
  congr 1
  funext a
  apply Fin.ext
  match a with
  | ⟨0, _⟩ => show win1_4.index t (0 : Fin 2) * 128 + 1 * (y 0).val = (y 0).val; rw [e0]; omega
  | ⟨1, _⟩ => show win1_4.index t (1 : Fin 2) * 128 + 1 * (y 1).val = (y 1).val; rw [e1]; omega

theorem iblk_whole5 (c : Dev nD) (t : Fin cfg1.N) : (iblk1 V c 5 t : S1x128.Idx → EReal) = (V c main_v18 : S1x128.Idx → EReal) := by
  obtain ⟨-, -, -, -, -, -, -, -, -, -, e0, e1, -⟩ := idx_facts t
  funext y
  unfold iblk1
  rw [View.read_apply]
  show V c main_v18 _ = V c main_v18 _
  congr 1
  funext a
  apply Fin.ext
  match a with
  | ⟨0, _⟩ => show win1_5.index t (0 : Fin 2) * 1 + 1 * (y 0).val = (y 0).val; rw [e0]; omega
  | ⟨1, _⟩ => show win1_5.index t (1 : Fin 2) * 128 + 1 * (y 1).val = (y 1).val; rw [e1]; omega

/-- What point t writes back is block t of the array function. -/
theorem flushed_eq (c : Dev nD) (t : Fin cfg1.N) :
    (dat1 (F := Ideal) V c).flushed 6 t = ((cfg1.win 6).blk t).view.read (Elt Ideal) (G V c) := by
  show (cfg1.win 6).cut (grid1.coords t) ((dat1 V c).after 6 t) = _
  rw [after1_6]
  unfold out1_6
  rw [View.canon_unit_zero hz]
  simp only [View.ld_unit_zero (S := S5000x128) hz, View.ld_unit_zero (S := S5000x1) hz, View.ld_unit_zero (S := S128x128) hz,
    View.ld_unit_zero (S := S1x128) hz]
  rw [iblk_whole3 V c t, iblk_whole4 V c t, iblk_whole5 V c t]
  obtain ⟨-, -, -, -, -, -, -, -, -, -, -, -, e0, e1⟩ := idx_facts t
  funext j
  show (k1_pay1 (F := Ideal) (iblk1 V c 0 t) (iblk1 V c 1 t) (iblk1 V c 2 t) (V c main_v16) (V c main_v17) (V c main_v18) : S5000x128.Idx → EReal) j
    = G V c (((cfg1.win 6).blk t).view.emb j)
  have hr : ((((cfg1.win 6).blk t).view.emb j : S100000x128.Idx) 0).val = t.val * 5000 + (j 0).val := by
    show win1_6.index t (0 : Fin 2) * 5000 + 1 * (j 0).val = _; rw [e0]; omega
  have hc : ((((cfg1.win 6).blk t).view.emb j : S100000x128.Idx) 1).val = (j 1).val := by
    show win1_6.index t (1 : Fin 2) * 128 + 1 * (j 1).val = _; rw [e1]; omega
  unfold G
  refine blk_eq' _ _ _ _ _ _ _ _ _ j _ hc (fun k => ?_) ?_ (fun k => ?_)
  · exact iblk_rows0 V c t _ _ hr rfl
  · exact iblk_rows1 V c t _ _ hr
  · exact iblk_rows2 V c t _ _ hr rfl

/-- An index of the array is in point t's block iff each coordinate is in the block's range on its axis. -/
theorem mem_blk (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v19).slice (win1_6.rect t)).set ↔ _
  rw [View.set_slice_whole, Rect.mem_set_unit]
  exact Iff.rfl

/-- Every row of the array is in the block of the point its row number divided by 5000 names. -/
theorem cover (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hN : cfg1.N = 20 := N_1
  have ht : (i 0).val / 5000 < cfg1.N := by rw [hN]; omega
  obtain ⟨-, -, -, -, -, -, -, -, -, -, -, -, e0, e1⟩ := idx_facts ⟨(i 0).val / 5000, ht⟩
  refine ⟨⟨(i 0).val / 5000, ht⟩, flush1_6 _, ?_⟩
  rw [mem_blk]
  intro a
  match a with
  | ⟨0, _⟩ =>
    show win1_6.index ⟨(i 0).val / 5000, ht⟩ (0 : Fin 2) * 5000 ≤ (i 0).val ∧ (i 0).val < win1_6.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_6.index ⟨(i 0).val / 5000, ht⟩ (1 : Fin 2) * 128 ≤ (i 1).val ∧ (i 1).val < win1_6.index ⟨(i 0).val / 5000, ht⟩ (1 : Fin 2) * 128 + 128
    rw [e1]; omega

/-- The output array after the region: the array function of the arrays the region found. -/
theorem final1 (c : Dev nD) : (dat1 (F := Ideal) V c).arrAt 6 cfg1.N = G V c :=
  (dat1 V c).arrAt_eq_of_cover 6 (G V c) (fun t _ => flushed_eq V c t) (cover)

end Blocks

end Cert.KernelIdeal.Region1

end
-- ==== Proof.KValue.lean ====
/-
  The idealized kernel program's result array as ONE function of its arguments.

  Walking back from the last boundary: the result buffer holds what the second kernel's write-backs left, which is the
  update stage of the arrays that kernel found; those are the host lines' summed rows, reciprocal counts, weight
  halves and bias row; the summed rows are the scatter-add of the first kernel's output, which is the node stage of
  the node array, the first weight matrix and the first bias as a row.
-/
import proofs.«109613_j47390669144619_2_alg».proof.Proof.Host
import proofs.«109613_j47390669144619_2_alg».proof.Proof.KRun
import proofs.«109613_j47390669144619_2_alg».proof.Proof.Region0
import proofs.«109613_j47390669144619_2_alg».proof.Proof.Region1

set_option maxRecDepth 16384

noncomputable section

namespace Cert.KernelIdeal.KValue

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The node stage of the arguments: every node row through relu (x · W + b). -/
def nodes (c : Dev nD) : S1000000x128.Idx → EReal :=
  Cert.Hyper.node (m ((c : Thread nD τ).loc main_arg1)) (m ((c : Thread nD τ).loc main_arg3))
    (shapeCast S1x128 (m ((c : Thread nD τ).loc main_arg4)) shapeCasts_S128_S1x128)

/-- The result array as a function of the arguments. -/
def result (c : Dev nD) : S100000x128.Idx → EReal :=
  Region1.updOf
    (HostRead.summed (F := Ideal) (m ((c : Thread nD τ).loc main_arg2)) (nodes m c))
    (HostRead.invc (F := Ideal) (m ((c : Thread nD τ).loc main_arg2)))
    (m ((c : Thread nD τ).loc main_arg0))
    (extractStridedSlice S128x128 ![0, 0] (m ((c : Thread nD τ).loc main_arg5)) slices_S256x128_S128x128_0_0)
    (extractStridedSlice S128x128 ![128, 0] (m ((c : Thread nD τ).loc main_arg5)) slices_S256x128_S128x128_128_0)
    (shapeCast S1x128 (m ((c : Thread nD τ).loc main_arg6)) shapeCasts_S128_S1x128)

/-- The first kernel's output array is the node stage of the arguments. -/
theorem nodes_eq (c : Dev nD) : (dat0 (F := Ideal) (V1 m ρ) c).arrAt 3 cfg0.N = nodes m c := by
  rw [Region0.final0, HostRead.V1_arg1, HostRead.V1_arg3, HostRead.V1_v0]
  rfl

/-- The last boundary's contents at the result buffer. -/
theorem W6_result (c : Dev nD) : W6 m ρ c (Proc.devRef .tc main_v19) = result m c := by
  have h6 : W6 m ρ c (Proc.devRef .tc main_v19) = (dat1 (V5 m ρ) c).arrAt 6 cfg1.N := W6_arr m ρ c 6
  rw [h6, Region1.final1]
  unfold Region1.G result
  rw [HostRead.V5_v7, HostRead.V5_v15, HostRead.V5_arg0, HostRead.V5_v16, HostRead.V5_v17, HostRead.V5_v18, nodes_eq]

/-- Every weakly fair execution of the idealized kernel program ends with the result array at `result` of the arguments
    and the arguments as launched. -/
theorem run : θ_run defs (onTc (τ := τ) (main (F := Ideal))) ⟨m, fun _ => 0, ρ⟩ (fun r => ∀ c : Dev nD,
      r.2.mem ((c.tc : Thread nD τ).loc main_v19) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (W6_result m ρ c), (h c).2⟩) (RunValue.run m ρ)

end Cert.KernelIdeal.KValue

end
-- ==== Proof.LibSumSplit.lean ====
/-
  Regrouping a contraction over a concatenated feature axis.

  A row of a product `cat · W`, where `cat = [a | b | c]` is a concatenation along the feature axis, is
  `∑ k, cat(i,k) * W(k,j)`.  Splitting the index range at the piece boundaries gives the sum of the
  pieces' own products against the matching row blocks of `W`:
  `(∑ k, a(i,k) * W(k,j)) + (∑ k, b(i,k) * W(w₁+k,j)) + (∑ k, c(i,k) * W(w₁+w₂+k,j))`.
  Only associativity and commutativity of addition are used (the extended reals are a commutative
  additive monoid); no distributivity, no finiteness.
-/
import Idealize.ShloMosaic.Lib.Pipeline.Value
import Idealize.ShloMosaic.Lib.ValueIdx
import Idealize.ShloMosaic.PureOps.Ideal.Laws

noncomputable section

open scoped BigOperators

namespace Cert.Spec

open Idealize.ShloMosaic Idealize.ShloMosaic.ValueIdx

/-! ## Sums over `Fin` split at a boundary -/

/-- A sum over `N = m + n` indices is the sum over the first `m` plus the sum over the last `n`. -/
theorem sum_fin_split_at {M : Type*} [AddCommMonoid M] {N : Nat} (m n : Nat) (h : m + n = N) (f : Fin N → M) :
    ∑ k : Fin N, f k
      = (∑ k : Fin m, f ⟨k.val, by have := k.isLt; omega⟩) + ∑ k : Fin n, f ⟨m + k.val, by have := k.isLt; omega⟩ := by
  subst h
  rw [Fin.sum_univ_add]
  rfl

/-- `144 = 64 + 64 + 16`: a sum over 144 indices, grouped as the three consecutive blocks. -/
theorem sum_fin144_split {M : Type*} [AddCommMonoid M] (f : Fin 144 → M) :
    ∑ k : Fin 144, f k
      = ((∑ k : Fin 64, f ⟨k.val, by have := k.isLt; omega⟩)
          + ∑ k : Fin 64, f ⟨64 + k.val, by have := k.isLt; omega⟩)
        + ∑ k : Fin 16, f ⟨128 + k.val, by have := k.isLt; omega⟩ := by
  rw [sum_fin_split_at 128 16 rfl f,
    sum_fin_split_at 64 64 rfl (fun k : Fin 128 => f ⟨k.val, by have := k.isLt; omega⟩)]

/-- `192 = 64 + 64 + 64`. -/
theorem sum_fin192_split {M : Type*} [AddCommMonoid M] (f : Fin 192 → M) :
    ∑ k : Fin 192, f k
      = ((∑ k : Fin 64, f ⟨k.val, by have := k.isLt; omega⟩)
          + ∑ k : Fin 64, f ⟨64 + k.val, by have := k.isLt; omega⟩)
        + ∑ k : Fin 64, f ⟨128 + k.val, by have := k.isLt; omega⟩ := by
  rw [sum_fin_split_at 128 64 rfl f,
    sum_fin_split_at 64 64 rfl (fun k : Fin 128 => f ⟨k.val, by have := k.isLt; omega⟩)]

/-- `256 = 64 + 64 + 64 + 64`. -/
theorem sum_fin256_split {M : Type*} [AddCommMonoid M] (f : Fin 256 → M) :
    ∑ k : Fin 256, f k
      = (((∑ k : Fin 64, f ⟨k.val, by have := k.isLt; omega⟩)
          + ∑ k : Fin 64, f ⟨64 + k.val, by have := k.isLt; omega⟩)
          + ∑ k : Fin 64, f ⟨128 + k.val, by have := k.isLt; omega⟩)
        + ∑ k : Fin 64, f ⟨192 + k.val, by have := k.isLt; omega⟩ := by
  rw [sum_fin_split_at 192 64 rfl f,
    sum_fin_split_at 128 64 rfl (fun k : Fin 192 => f ⟨k.val, by have := k.isLt; omega⟩),
    sum_fin_split_at 64 64 rfl (fun k : Fin 128 => f ⟨k.val, by have := k.isLt; omega⟩)]

/-! ## A concatenation along the feature axis of a two-axis array, read at an index -/

section Concat
variable {α : Type}

/-- Piece `p` of a concatenation along axis 1 of `[R, K]`, of width `w` and starting at column `pre` (the widths of the
    pieces before it), read at row `i` and column `c = pre + k`: the piece itself at `(i, k)`. -/
theorem concatenate_cols_apply {R K w : Nat} (xs : List ((s : Shape) × (s.Idx → α)))
    (h : Shape.Concatenates (xs.map (·.1)) ⟨2, ![R, K]⟩ 1)
    (p : Nat) (hp : p < xs.length) (x : (⟨2, ![R, w]⟩ : Shape).Idx → α) (hx : xs[p] = ⟨⟨2, ![R, w]⟩, x⟩)
    (pre : Nat)
    (hpre : (((xs.take p).map (·.1)).map fun s : Shape =>
        if h : s.rank = (⟨2, ![R, K]⟩ : Shape).rank then s.size ((1 : Fin 2).cast h.symm) else 0).sum = pre)
    (i : Fin R) (k : Fin w) (c : Fin K) (hc : pre + k.val = c.val) :
    concatenate ⟨2, ![R, K]⟩ 1 xs h (ix2 i c) = x (ix2 i k) :=
  concatenate_apply_piece (1 : Fin 2) xs h (ix2 i c) p hp ⟨2, ![R, w]⟩ x hx rfl pre hpre (ix2 i k)
    (fun b hb => match b, hb with
      | ⟨0, _⟩, _ => rfl
      | ⟨1, _⟩, hb => absurd rfl hb)
    hc

end Concat

/-! ## A contraction over a concatenated feature axis is the sum of the pieces' contractions

`W` is the second factor as a function of the contraction index alone (a column of the weight matrix); a caller
instantiates it with `fun k => w (ix2 k j)`. The right-hand sides are associated as a left-to-right chain of additions. -/

section Contraction

/-- Pieces of widths 64, 64, 16 (`K = 144`):
    `∑ k<144, [a|b|c](i,k) * W k = ((∑ k<64, a(i,k) * W k) + (∑ k<64, b(i,k) * W (64+k))) + ∑ k<16, c(i,k) * W (128+k)`. -/
theorem sum_concat_64_64_16 {R : Nat}
    (a b : (⟨2, ![R, 64]⟩ : Shape).Idx → EReal) (c : (⟨2, ![R, 16]⟩ : Shape).Idx → EReal)
    (h : Shape.Concatenates [⟨2, ![R, 64]⟩, ⟨2, ![R, 64]⟩, ⟨2, ![R, 16]⟩] ⟨2, ![R, 144]⟩ 1)
    (W : Fin 144 → EReal) (i : Fin R) :
    ∑ k : Fin 144,
        concatenate ⟨2, ![R, 144]⟩ 1 [⟨⟨2, ![R, 64]⟩, a⟩, ⟨⟨2, ![R, 64]⟩, b⟩, ⟨⟨2, ![R, 16]⟩, c⟩] h (ix2 i k) * W k
      = ((∑ k : Fin 64, a (ix2 i k) * W ⟨k.val, by have := k.isLt; omega⟩)
          + ∑ k : Fin 64, b (ix2 i k) * W ⟨64 + k.val, by have := k.isLt; omega⟩)
        + ∑ k : Fin 16, c (ix2 i k) * W ⟨128 + k.val, by have := k.isLt; omega⟩ := by
  rw [sum_fin144_split]
  refine congrArg₂ (· + ·) (congrArg₂ (· + ·) ?_ ?_) ?_
  · refine Finset.sum_congr rfl fun k _ => ?_
    rw [concatenate_cols_apply [⟨⟨2, ![R, 64]⟩, a⟩, ⟨⟨2, ![R, 64]⟩, b⟩, ⟨⟨2, ![R, 16]⟩, c⟩] h 0 (by simp) a rfl 0 rfl i k _ (Nat.zero_add _)]
  · refine Finset.sum_congr rfl fun k _ => ?_
    rw [concatenate_cols_apply [⟨⟨2, ![R, 64]⟩, a⟩, ⟨⟨2, ![R, 64]⟩, b⟩, ⟨⟨2, ![R, 16]⟩, c⟩] h 1 (by simp) b rfl 64 rfl i k _ rfl]
  · refine Finset.sum_congr rfl fun k _ => ?_
    rw [concatenate_cols_apply [⟨⟨2, ![R, 64]⟩, a⟩, ⟨⟨2, ![R, 64]⟩, b⟩, ⟨⟨2, ![R, 16]⟩, c⟩] h 2 (by simp) c rfl 128 rfl i k _ rfl]

/-- Three pieces of width 64 (`K = 192`). -/
theorem sum_concat_64_64_64 {R : Nat}
    (a b c : (⟨2, ![R, 64]⟩ : Shape).Idx → EReal)
    (h : Shape.Concatenates [⟨2, ![R, 64]⟩, ⟨2, ![R, 64]⟩, ⟨2, ![R, 64]⟩] ⟨2, ![R, 192]⟩ 1)
    (W : Fin 192 → EReal) (i : Fin R) :
    ∑ k : Fin 192,
        concatenate ⟨2, ![R, 192]⟩ 1 [⟨⟨2, ![R, 64]⟩, a⟩, ⟨⟨2, ![R, 64]⟩, b⟩, ⟨⟨2, ![R, 64]⟩, c⟩] h (ix2 i k) * W k
      = ((∑ k : Fin 64, a (ix2 i k) * W ⟨k.val, by have := k.isLt; omega⟩)
          + ∑ k : Fin 64, b (ix2 i k) * W ⟨64 + k.val, by have := k.isLt; omega⟩)
        + ∑ k : Fin 64, c (ix2 i k) * W ⟨128 + k.val, by have := k.isLt; omega⟩ := by
  rw [sum_fin192_split]
  refine congrArg₂ (· + ·) (congrArg₂ (· + ·) ?_ ?_) ?_
  · refine Finset.sum_congr rfl fun k _ => ?_
    rw [concatenate_cols_apply [⟨⟨2, ![R, 64]⟩, a⟩, ⟨⟨2, ![R, 64]⟩, b⟩, ⟨⟨2, ![R, 64]⟩, c⟩] h 0 (by simp) a rfl 0 rfl i k _ (Nat.zero_add _)]
  · refine Finset.sum_congr rfl fun k _ => ?_
    rw [concatenate_cols_apply [⟨⟨2, ![R, 64]⟩, a⟩, ⟨⟨2, ![R, 64]⟩, b⟩, ⟨⟨2, ![R, 64]⟩, c⟩] h 1 (by simp) b rfl 64 rfl i k _ rfl]
  · refine Finset.sum_congr rfl fun k _ => ?_
    rw [concatenate_cols_apply [⟨⟨2, ![R, 64]⟩, a⟩, ⟨⟨2, ![R, 64]⟩, b⟩, ⟨⟨2, ![R, 64]⟩, c⟩] h 2 (by simp) c rfl 128 rfl i k _ rfl]

/-- Four pieces of width 64 (`K = 256`). -/
theorem sum_concat_64_64_64_64 {R : Nat}
    (a b c d : (⟨2, ![R, 64]⟩ : Shape).Idx → EReal)
    (h : Shape.Concatenates [⟨2, ![R, 64]⟩, ⟨2, ![R, 64]⟩, ⟨2, ![R, 64]⟩, ⟨2, ![R, 64]⟩] ⟨2, ![R, 256]⟩ 1)
    (W : Fin 256 → EReal) (i : Fin R) :
    ∑ k : Fin 256,
        concatenate ⟨2, ![R, 256]⟩ 1
          [⟨⟨2, ![R, 64]⟩, a⟩, ⟨⟨2, ![R, 64]⟩, b⟩, ⟨⟨2, ![R, 64]⟩, c⟩, ⟨⟨2, ![R, 64]⟩, d⟩] h (ix2 i k) * W k
      = (((∑ k : Fin 64, a (ix2 i k) * W ⟨k.val, by have := k.isLt; omega⟩)
          + ∑ k : Fin 64, b (ix2 i k) * W ⟨64 + k.val, by have := k.isLt; omega⟩)
          + ∑ k : Fin 64, c (ix2 i k) * W ⟨128 + k.val, by have := k.isLt; omega⟩)
        + ∑ k : Fin 64, d (ix2 i k) * W ⟨192 + k.val, by have := k.isLt; omega⟩ := by
  rw [sum_fin256_split]
  refine congrArg₂ (· + ·) (congrArg₂ (· + ·) (congrArg₂ (· + ·) ?_ ?_) ?_) ?_
  · refine Finset.sum_congr rfl fun k _ => ?_
    rw [concatenate_cols_apply [⟨⟨2, ![R, 64]⟩, a⟩, ⟨⟨2, ![R, 64]⟩, b⟩, ⟨⟨2, ![R, 64]⟩, c⟩, ⟨⟨2, ![R, 64]⟩, d⟩] h 0 (by simp) a rfl 0 rfl i k _ (Nat.zero_add _)]
  · refine Finset.sum_congr rfl fun k _ => ?_
    rw [concatenate_cols_apply [⟨⟨2, ![R, 64]⟩, a⟩, ⟨⟨2, ![R, 64]⟩, b⟩, ⟨⟨2, ![R, 64]⟩, c⟩, ⟨⟨2, ![R, 64]⟩, d⟩] h 1 (by simp) b rfl 64 rfl i k _ rfl]
  · refine Finset.sum_congr rfl fun k _ => ?_
    rw [concatenate_cols_apply [⟨⟨2, ![R, 64]⟩, a⟩, ⟨⟨2, ![R, 64]⟩, b⟩, ⟨⟨2, ![R, 64]⟩, c⟩, ⟨⟨2, ![R, 64]⟩, d⟩] h 2 (by simp) c rfl 128 rfl i k _ rfl]
  · refine Finset.sum_congr rfl fun k _ => ?_
    rw [concatenate_cols_apply [⟨⟨2, ![R, 64]⟩, a⟩, ⟨⟨2, ![R, 64]⟩, b⟩, ⟨⟨2, ![R, 64]⟩, c⟩, ⟨⟨2, ![R, 64]⟩, d⟩] h 3 (by simp) d rfl 192 rfl i k _ rfl]

end Contraction

end Cert.Spec

end
-- ==== Proof.RefSpec.lean ====
/-
  The reference's stages are the specification.

  Read one element at a time, the reference's node stage is  relu (x · W + b): entry (r, k) is
  max (∑ c, x (r, c) * W (c, k) + b k) 0.  Its update stage contracts the joined row [agg | h] (256 entries) with
  a 256 × 128 weight matrix; splitting the contraction index at 128 gives the averaged row's product with the
  upper 128 rows of the matrix plus the feature row's product with its lower 128 rows.  Adding the bias and
  clamping below by 0 gives the activation u; the result is u divided by max (sqrt (∑ k, u k * u k)) eps, where
  the float sum starts from the word of 0.0, which is 0.

  Only associativity and commutativity of addition (to split the sum) and 0 + s = s are used; no finiteness.
-/
import proofs.«109613_j47390669144619_2_alg».proof.Proof.Gen.ReferenceIdeal.Read
import proofs.«109613_j47390669144619_2_alg».proof.Proof.Spec
import proofs.«109613_j47390669144619_2_alg».proof.Proof.LibSumSplit
import Idealize.ShloMosaic.Lib.ValueLayout

noncomputable section

open scoped BigOperators

namespace Cert.RefSpec

open Cert.ReferenceIdeal Cert.ReferenceIdeal.Read Idealize.ShloMosaic Idealize.ShloMosaic.ValueIdx

/-- The node stage of the reference, read at row r and column k: relu of the row's product with the weights plus
    the bias row. The contraction's two index functions are the row (r, c) and the column (c, k). -/
theorem ref_node (x1 : (⟨S1000000x128, .f32⟩ : BufTy).Contents (Elt Ideal)) (x3 : (⟨S128x128, .f32⟩ : BufTy).Contents (Elt Ideal)) (x4 : (⟨S128, .f32⟩ : BufTy).Contents (Elt Ideal)) :
    val_main_v4 (F := Ideal) x1 x3 x4 = Cert.Hyper.node x1 x3 (val_main_v1 (F := Ideal) x4) := by
  funext i
  obtain ⟨r, k, rfl⟩ : ∃ (r : Fin 1000000) (k : Fin 128), i = ix2 r k := ⟨i 0, i 1, eq_ix2 i⟩
  rw [Cert.Hyper.node_ix2, val_main_v4_apply, val_main_v3_apply, val_main_v0_apply, val_main_v2_apply,
    val_main_call0_v0_apply, val_main_call0_cst_apply]
  simp only [Ideal.maximumf_def, Ideal.addf_def, Ideal.ofBits_def]
  unfold Cert.Hyper.nodeRow
  have e1 : ∀ c : Fin 128, lidx_main_v0 (ix2 r k) c = ix2 r c := fun c =>
    funext fun a => Fin.ext (by match a with | ⟨0, _⟩ => rfl | ⟨1, _⟩ => rfl)
  have e2 : ∀ c : Fin 128, ridx_main_v0 (ix2 r k) c = ix2 c k := fun c =>
    funext fun a => Fin.ext (by match a with | ⟨0, _⟩ => rfl | ⟨1, _⟩ => rfl)
  have e3 : idx_main_v2 (ix2 r k) = ix2 (0 : Fin 1) k :=
    funext fun a => Fin.ext (by match a with | ⟨0, _⟩ => rfl | ⟨1, _⟩ => rfl)
  simp only [e1, e2, e3]

/-- The 256-wide contraction of the joined row [a | h] with the weight matrix W, at row e and column k, is the
    contraction of a's row with W's upper 128 rows plus the contraction of h's row with W's lower 128 rows. -/
theorem contraction_split (a h : (⟨S100000x128, .f32⟩ : BufTy).Contents (Elt Ideal))
    (W : (⟨S256x128, .f32⟩ : BufTy).Contents (Elt Ideal))
    (hc : Shape.Concatenates [S100000x128, S100000x128] S100000x256 1)
    (hs0 : S256x128.Slices ![0, 0] S128x128) (hs1 : S256x128.Slices ![128, 0] S128x128)
    (e : Fin 100000) (k : Fin 128) :
    ∑ k' : Fin 256, concatenate S100000x256 1 [⟨S100000x128, a⟩, ⟨S100000x128, h⟩] hc (lidx_main_v19 (ix2 e k) k')
        * W (ridx_main_v19 (ix2 e k) k')
      = (∑ c : Fin 128, a (ix2 e c) * extractStridedSlice S128x128 ![0, 0] W hs0 (ix2 c k))
        + ∑ c : Fin 128, h (ix2 e c) * extractStridedSlice S128x128 ![128, 0] W hs1 (ix2 c k) := by
  rw [Cert.Hyper.sum_256_split]
  refine congrArg₂ (· + ·) (Finset.sum_congr rfl fun c _ => ?_) (Finset.sum_congr rfl fun c _ => ?_)
  · have el : lidx_main_v19 (ix2 e k) ⟨c.val, by have := c.isLt; omega⟩
        = ix2 e (⟨c.val, by have := c.isLt; omega⟩ : Fin 256) :=
      funext fun a => Fin.ext (by match a with | ⟨0, _⟩ => rfl | ⟨1, _⟩ => rfl)
    have er : ridx_main_v19 (ix2 e k) ⟨c.val, by have := c.isLt; omega⟩
        = ix2 (⟨0 + c.val, by have := c.isLt; omega⟩ : Fin 256) k :=
      funext fun a => Fin.ext (by match a with | ⟨0, _⟩ => exact (Nat.zero_add _).symm | ⟨1, _⟩ => rfl)
    rw [el, er]
    refine congrArg₂ (· * ·) ?_ ?_
    · exact Cert.Spec.concatenate_cols_apply (R := 100000) (K := 256) (w := 128)
        [⟨S100000x128, a⟩, ⟨S100000x128, h⟩] hc 0 (by simp) a rfl 0 rfl e c _ (Nat.zero_add _)
    · exact (slice2_axis0_eq 0 W hs0 c k).symm
  · have el : lidx_main_v19 (ix2 e k) ⟨128 + c.val, by have := c.isLt; omega⟩
        = ix2 e (⟨128 + c.val, by have := c.isLt; omega⟩ : Fin 256) :=
      funext fun a => Fin.ext (by match a with | ⟨0, _⟩ => rfl | ⟨1, _⟩ => rfl)
    have er : ridx_main_v19 (ix2 e k) ⟨128 + c.val, by have := c.isLt; omega⟩
        = ix2 (⟨128 + c.val, by have := c.isLt; omega⟩ : Fin 256) k :=
      funext fun a => Fin.ext (by match a with | ⟨0, _⟩ => rfl | ⟨1, _⟩ => rfl)
    rw [el, er]
    refine congrArg₂ (· * ·) ?_ ?_
    · exact Cert.Spec.concatenate_cols_apply (R := 100000) (K := 256) (w := 128)
        [⟨S100000x128, a⟩, ⟨S100000x128, h⟩] hc 1 (by simp) h rfl 128 rfl e c _ rfl
    · exact (slice2_axis0_eq 128 W hs1 c k).symm

/-- The reference's activation (the update before normalisation) at row e and column k: relu of the averaged row's
    product with the upper weights plus the feature row's product with the lower weights plus the bias. -/
theorem ref_act (x0 : (⟨S100000x128, .f32⟩ : BufTy).Contents (Elt Ideal)) (x1 : (⟨S1000000x128, .f32⟩ : BufTy).Contents (Elt Ideal)) (x2 : (⟨S2x1000000, .i32⟩ : BufTy).Contents (Elt Ideal)) (x3 : (⟨S128x128, .f32⟩ : BufTy).Contents (Elt Ideal)) (x4 : (⟨S128, .f32⟩ : BufTy).Contents (Elt Ideal)) (x5 : (⟨S256x128, .f32⟩ : BufTy).Contents (Elt Ideal)) (x6 : (⟨S128, .f32⟩ : BufTy).Contents (Elt Ideal))
    (hs0 : S256x128.Slices ![0, 0] S128x128) (hs1 : S256x128.Slices ![128, 0] S128x128)
    (e : Fin 100000) (k : Fin 128) :
    val_main_v23 (F := Ideal) x0 x1 x2 x3 x4 x5 x6 (ix2 e k)
      = Cert.Hyper.actRow (fun c => val_main_v17 (F := Ideal) x1 x2 x3 x4 (ix2 e c)) (fun c => x0 (ix2 e c))
          (extractStridedSlice S128x128 ![0, 0] x5 hs0) (extractStridedSlice S128x128 ![128, 0] x5 hs1)
          (val_main_v20 (F := Ideal) x6) k := by
  rw [val_main_v23_apply, val_main_v22_apply, val_main_v19_apply, val_main_v21_apply,
    val_main_call2_v0_apply, val_main_call2_cst_apply]
  simp only [Ideal.maximumf_def, Ideal.addf_def, Ideal.ofBits_def]
  unfold Cert.Hyper.actRow val_main_v18
  have e3 : idx_main_v21 (ix2 e k) = ix2 (0 : Fin 1) k :=
    funext fun a => Fin.ext (by match a with | ⟨0, _⟩ => rfl | ⟨1, _⟩ => rfl)
  rw [e3, contraction_split _ _ x5 _ hs0 hs1 e k]

/-- The reference's result: each activation row divided by its Euclidean norm clamped below. The float sum starts
    from the zero word, which is 0, and runs over the row's 128 squares. -/
theorem ref_upd (x0 : (⟨S100000x128, .f32⟩ : BufTy).Contents (Elt Ideal)) (x1 : (⟨S1000000x128, .f32⟩ : BufTy).Contents (Elt Ideal)) (x2 : (⟨S2x1000000, .i32⟩ : BufTy).Contents (Elt Ideal)) (x3 : (⟨S128x128, .f32⟩ : BufTy).Contents (Elt Ideal)) (x4 : (⟨S128, .f32⟩ : BufTy).Contents (Elt Ideal)) (x5 : (⟨S256x128, .f32⟩ : BufTy).Contents (Elt Ideal)) (x6 : (⟨S128, .f32⟩ : BufTy).Contents (Elt Ideal))
    (hs0 : S256x128.Slices ![0, 0] S128x128) (hs1 : S256x128.Slices ![128, 0] S128x128) :
    val_main_v28 (F := Ideal) x0 x1 x2 x3 x4 x5 x6
      = Cert.Hyper.upd (val_main_v17 (F := Ideal) x1 x2 x3 x4) x0 (extractStridedSlice S128x128 ![0, 0] x5 hs0)
          (extractStridedSlice S128x128 ![128, 0] x5 hs1) (val_main_v20 (F := Ideal) x6) := by
  funext i
  obtain ⟨e, k, rfl⟩ : ∃ (e : Fin 100000) (k : Fin 128), i = ix2 e k := ⟨i 0, i 1, eq_ix2 i⟩
  rw [Cert.Hyper.upd_ix2]
  unfold Cert.Hyper.updRow
  rw [val_main_v28_apply, val_main_v27_apply, val_main_v26_apply, val_main_v24_apply, val_main_call3_v2_apply,
    val_main_call3_v1_apply, val_main_v25_apply, val_main_cst_3_apply, val_main_call3_cst_apply]
  rw [Ideal.hostDivf_def, Ideal.maximumf_def, Ideal.hostUnary_sqrt_def, Ideal.ofBits_def, Ideal.ofBits_def,
    Ideal.ofBits_zero_f32, zero_add, ref_act x0 x1 x2 x3 x4 x5 x6 hs0 hs1 e k]
  have hs : ∀ k' : Fin 128,
      val_main_call3_v0 (F := Ideal) x0 x1 x2 x3 x4 x5 x6 (idx_main_call3_v1 (idx_main_call3_v2 (idx_main_v27 (ix2 e k))) k')
        = Cert.Hyper.actRow (fun c => val_main_v17 (F := Ideal) x1 x2 x3 x4 (ix2 e c)) (fun c => x0 (ix2 e c))
              (extractStridedSlice S128x128 ![0, 0] x5 hs0) (extractStridedSlice S128x128 ![128, 0] x5 hs1) (val_main_v20 (F := Ideal) x6) k'
          * Cert.Hyper.actRow (fun c => val_main_v17 (F := Ideal) x1 x2 x3 x4 (ix2 e c)) (fun c => x0 (ix2 e c))
              (extractStridedSlice S128x128 ![0, 0] x5 hs0) (extractStridedSlice S128x128 ![128, 0] x5 hs1) (val_main_v20 (F := Ideal) x6) k' := fun k' => by
    have ei : idx_main_call3_v1 (idx_main_call3_v2 (idx_main_v27 (ix2 e k))) k' = ix2 e k' :=
      funext fun a => Fin.ext (by match a with | ⟨0, _⟩ => rfl | ⟨1, _⟩ => rfl)
    rw [ei, val_main_call3_v0_apply, Ideal.mulf_def, ref_act x0 x1 x2 x3 x4 x5 x6 hs0 hs1 e k']
  simp only [hs]

end Cert.RefSpec

end
-- ==== Proof.LibVec.lean ====
/-
  Two general facts about vectors of extended reals, used where two programs spell one array differently.
-/
import Idealize.ShloMosaic.PureOps.Ideal
import Idealize.ShloMosaic.Lib.ValueIdx
import Idealize.ShloMosaic.Lib.Pipeline.Value

noncomputable section

namespace Cert.LibVec

open Idealize.ShloMosaic

/-- The entrywise product of two vectors of extended reals does not depend on the order of its factors:
    multiplication of extended reals is commutative, at the infinities too. -/
theorem mulf_comm {s : Shape} {φ : FTy} (a b : FVec Ideal s φ) : mulf a b = mulf b a :=
  funext fun i => mul_comm (a i) (b i)

/-- A vector of n entries laid out as a matrix of one row is the same array whether the row is made by re-laying
    the n entries in row-major order or by broadcasting entry j to position (0, j): both put entry j at (0, j). -/
theorem row_of_vec {α : Type} {n : Nat} (x : (⟨1, ![n]⟩ : Shape).Idx → α)
    (h : (⟨1, ![n]⟩ : Shape).ShapeCasts ⟨2, ![1, n]⟩)
    (h' : (⟨1, ![n]⟩ : Shape).BroadcastsInDim ⟨2, ![1, n]⟩ ![1]) (hn : n ≠ 1) :
    shapeCast ⟨2, ![1, n]⟩ x h = broadcastInDim ⟨2, ![1, n]⟩ ![1] h' x := by
  funext j
  have hj0 : (j 0).val = 0 := by have := (j 0).isLt; simp at this; omega
  have e1 : shapeCast ⟨2, ![1, n]⟩ x h j = x (ValueIdx.ix1 (j 1)) :=
    shapeCast_apply x h j (ValueIdx.ix1 (j 1)) (by
      rw [Shape.rowMajor_val_one, Shape.rowMajor_val_two]
      show (j 1).val = (j 0).val * n + (j 1).val
      rw [hj0]; omega)
  have e2 : broadcastInDim ⟨2, ![1, n]⟩ ![1] h' x j = x (ValueIdx.ix1 (j 1)) :=
    broadcastInDim_apply ![1] h' x j (ValueIdx.ix1 (j 1)) (fun a => match a with
      | ⟨0, _⟩ => by show (j 1).val = if n = 1 then 0 else (j 1).val; rw [if_neg hn])
  rw [e1, e2]

end Cert.LibVec

end
-- ==== Proof.Bridge.lean ====
/-
  The averaged rows agree.

  Between the node stage and the update stage both programs add up the node rows per hyperedge and count each
  hyperedge's members, with the same scatter-add at the same hyperedge ids into zeros. The sums are never opened:
  once the scattered rows are shown equal, the two sums are one term.

    * The bias as a row: a vector of 128 entries re-laid as a 1 × 128 row (the kernel program) is the vector
      with entry j broadcast to (0, j) (the reference).
    * The scattered rows: the kernel program scatters the node stage's rows, stored narrow and widened again,
      which on the extended reals is the identity; the reference scatters its own node stage, which is the
      specification's by hypothesis.
    * The averaged row: the kernel program multiplies the summed row by 1 / max (1, count), the reference divides
      it by max (1, count). Since max (1, count) is not zero, x * (1 / c) = x / c on every extended real x.
-/
import proofs.«109613_j47390669144619_2_alg».proof.Proof.Host
import proofs.«109613_j47390669144619_2_alg».proof.Proof.Gen.ReferenceIdeal.Read
import proofs.«109613_j47390669144619_2_alg».proof.Proof.Spec
import proofs.«109613_j47390669144619_2_alg».proof.Proof.LibVec
import proofs.«109613_j47390669144619_2_alg».proof.Proof.LibColumn
import Idealize.ShloMosaic.Lib.ValueIdx
import Idealize.ShloMosaic.Lib.IdealHost

noncomputable section

namespace Cert.Bridge

open Idealize.ShloMosaic Idealize.ShloMosaic.ValueIdx

/-! ## The bias as a row -/

/-- The first bias as a row: re-laying the 128 entries as one row of 128 is broadcasting entry j to (0, j). -/
theorem bias_row (x : (⟨Cert.ReferenceIdeal.S128, .f32⟩ : BufTy).Contents (Elt Ideal)) :
    (shapeCast Cert.KernelIdeal.S1x128 x Cert.KernelIdeal.Gen.shapeCasts_S128_S1x128 : Cert.Hyper.Mat 1 128)
      = Cert.ReferenceIdeal.Read.val_main_v1 (F := Ideal) x := by
  unfold Cert.ReferenceIdeal.Read.val_main_v1
  exact Cert.LibVec.row_of_vec x _ _ (by decide)

/-- The second bias as a row, the same way. -/
theorem bias_row' (x : (⟨Cert.ReferenceIdeal.S128, .f32⟩ : BufTy).Contents (Elt Ideal)) :
    (shapeCast Cert.KernelIdeal.S1x128 x Cert.KernelIdeal.Gen.shapeCasts_S128_S1x128 : Cert.Hyper.Mat 1 128)
      = Cert.ReferenceIdeal.Read.val_main_v20 (F := Ideal) x := by
  unfold Cert.ReferenceIdeal.Read.val_main_v20
  exact Cert.LibVec.row_of_vec x _ _ (by decide)

/-! ## The summed rows -/

/-- Widening a narrow float array is the identity on the extended reals. -/
theorem extf_id {s : Shape} (n : FVec Ideal s .bf16) (h : FTy.bf16.bits < FTy.f32.bits) :
    (extf .f32 n h : FVec Ideal s .f32) = n := rfl

/-- The node rows added up per hyperedge: both programs scatter-add the same rows at the same hyperedge ids into
    zeros. The rows agree by `hnode` (the reference's node stage is the specification's) and the bias row; on the
    extended reals widening the stored rows is the identity. -/
theorem summed_eq (x1 : (⟨Cert.ReferenceIdeal.S1000000x128, .f32⟩ : BufTy).Contents (Elt Ideal))
    (x2 : (⟨Cert.ReferenceIdeal.S2x1000000, .i32⟩ : BufTy).Contents (Elt Ideal))
    (x3 : (⟨Cert.ReferenceIdeal.S128x128, .f32⟩ : BufTy).Contents (Elt Ideal))
    (x4 : (⟨Cert.ReferenceIdeal.S128, .f32⟩ : BufTy).Contents (Elt Ideal))
    (hnode : Cert.ReferenceIdeal.Read.val_main_v4 (F := Ideal) x1 x3 x4
      = Cert.Hyper.node x1 x3 (Cert.ReferenceIdeal.Read.val_main_v1 (F := Ideal) x4)) :
    Cert.KernelIdeal.HostRead.summed (F := Ideal) x2
        (Cert.Hyper.node x1 x3 (shapeCast Cert.KernelIdeal.S1x128 x4 Cert.KernelIdeal.Gen.shapeCasts_S128_S1x128))
      = Cert.ReferenceIdeal.Read.val_main_v9 (F := Ideal) x1 x2 x3 x4 := by
  unfold Cert.KernelIdeal.HostRead.summed Cert.KernelIdeal.HostRead.idx Cert.ReferenceIdeal.Read.val_main_v9
    Cert.ReferenceIdeal.Read.val_main_v8 Cert.ReferenceIdeal.Read.val_main_v7 Cert.ReferenceIdeal.Read.val_main_v6
    Cert.ReferenceIdeal.Read.val_main_v5 Cert.ReferenceIdeal.Read.val_main_cst
  rw [hnode, ← bias_row x4, extf_id]
  rfl

/-! ## The member count and its clamp -/

/-- The member count: both programs scatter-add ones at the same hyperedge ids into zeros. -/
theorem count_eq (x2 : (⟨Cert.ReferenceIdeal.S2x1000000, .i32⟩ : BufTy).Contents (Elt Ideal)) :
    Cert.KernelIdeal.HostRead.count (F := Ideal) x2 = Cert.ReferenceIdeal.Read.val_main_v13 (F := Ideal) x2 := by
  unfold Cert.KernelIdeal.HostRead.count Cert.KernelIdeal.HostRead.idx Cert.ReferenceIdeal.Read.val_main_v13
    Cert.ReferenceIdeal.Read.val_main_v12 Cert.ReferenceIdeal.Read.val_main_v11 Cert.ReferenceIdeal.Read.val_main_v10
    Cert.ReferenceIdeal.Read.val_main_v6 Cert.ReferenceIdeal.Read.val_main_v5 Cert.ReferenceIdeal.Read.val_main_cst_1
    Cert.ReferenceIdeal.Read.val_main_cst_0
  rfl

/-- A scalar float word repeated over any shape reads, everywhere, the value the word denotes. -/
theorem splat_apply {T : Shape} (h : (⟨0, ![]⟩ : Shape).BroadcastsInDim T ![]) (b : BitVec FTy.f32.bits) (j : T.Idx) :
    broadcastInDim T ![] h (constant (F := Ideal) ⟨0, ![]⟩ .f32 b) j = Ideal.ofBits .f32 b := by
  rw [broadcastInDim_scalar_apply]; rfl

/-- The kernel program's clamped count of hyperedge e is max (1, count e). -/
theorem clamped_apply (x2 : (⟨Cert.ReferenceIdeal.S2x1000000, .i32⟩ : BufTy).Contents (Elt Ideal)) (e : Fin 100000) :
    Cert.KernelIdeal.HostRead.clamped (F := Ideal) x2 (ix1 e)
      = max Cert.Hyper.one (Cert.ReferenceIdeal.Read.val_main_v13 (F := Ideal) x2 (ix1 e)) := by
  unfold Cert.KernelIdeal.HostRead.clamped
  rw [count_eq, maximumf_apply]
  exact congrArg₂ max (splat_apply _ _ _) rfl

/-- The reference's clamped count of hyperedge e is max (1, count e). -/
theorem v14_apply (x2 : (⟨Cert.ReferenceIdeal.S2x1000000, .i32⟩ : BufTy).Contents (Elt Ideal)) (e : Fin 100000) :
    Cert.ReferenceIdeal.Read.val_main_v14 (F := Ideal) x2 (ix1 e)
      = max Cert.Hyper.one (Cert.ReferenceIdeal.Read.val_main_v13 (F := Ideal) x2 (ix1 e)) := by
  rw [Cert.ReferenceIdeal.Read.val_main_v14_apply, Cert.ReferenceIdeal.Read.val_main_call1_v1_apply,
    Cert.ReferenceIdeal.Read.val_main_call1_v0_apply, Cert.ReferenceIdeal.Read.val_main_cst_2_apply]
  rfl

/-- The reference's divisor at (e, k) is the clamped count of hyperedge e, whatever k. -/
theorem v16_apply (x2 : (⟨Cert.ReferenceIdeal.S2x1000000, .i32⟩ : BufTy).Contents (Elt Ideal)) (e : Fin 100000) (k : Fin 128) :
    Cert.ReferenceIdeal.Read.val_main_v16 (F := Ideal) x2 (ix2 e k)
      = max Cert.Hyper.one (Cert.ReferenceIdeal.Read.val_main_v13 (F := Ideal) x2 (ix1 e)) := by
  have hidx : Cert.ReferenceIdeal.Read.idx_main_v15 (Cert.ReferenceIdeal.Read.idx_main_v16 (ix2 e k)) = ix1 e :=
    funext fun a => by match a with | ⟨0, _⟩ => rfl
  rw [Cert.ReferenceIdeal.Read.val_main_v16_apply, Cert.ReferenceIdeal.Read.val_main_v15_apply, hidx]
  exact v14_apply x2 e

/-- The kernel program's reciprocal column at (e, 0) is 1 / max (1, count e). -/
theorem invc_apply (x2 : (⟨Cert.ReferenceIdeal.S2x1000000, .i32⟩ : BufTy).Contents (Elt Ideal)) (e : Fin 100000) :
    Cert.KernelIdeal.HostRead.invc (F := Ideal) x2 (ix2 e (0 : Fin 1))
      = Ideal.div Cert.Hyper.one (max Cert.Hyper.one (Cert.ReferenceIdeal.Read.val_main_v13 (F := Ideal) x2 (ix1 e))) := by
  unfold Cert.KernelIdeal.HostRead.invc
  rw [Cert.Lib.Column.shapeCast_a_a1_apply, hostDivf_apply, clamped_apply, splat_apply]

/-! ## The averaged rows -/

/-- The averaged row: the summed row times the reciprocal of the clamped count is the summed row divided by the
    clamped count, because a count clamped below by one is not zero. -/
theorem agg_eq (x1 : (⟨Cert.ReferenceIdeal.S1000000x128, .f32⟩ : BufTy).Contents (Elt Ideal))
    (x2 : (⟨Cert.ReferenceIdeal.S2x1000000, .i32⟩ : BufTy).Contents (Elt Ideal))
    (x3 : (⟨Cert.ReferenceIdeal.S128x128, .f32⟩ : BufTy).Contents (Elt Ideal))
    (x4 : (⟨Cert.ReferenceIdeal.S128, .f32⟩ : BufTy).Contents (Elt Ideal))
    (hnode : Cert.ReferenceIdeal.Read.val_main_v4 (F := Ideal) x1 x3 x4
      = Cert.Hyper.node x1 x3 (Cert.ReferenceIdeal.Read.val_main_v1 (F := Ideal) x4)) :
    (fun i : Cert.KernelIdeal.S100000x128.Idx =>
        (Cert.KernelIdeal.HostRead.summed (F := Ideal) x2
            (Cert.Hyper.node x1 x3 (shapeCast Cert.KernelIdeal.S1x128 x4 Cert.KernelIdeal.Gen.shapeCasts_S128_S1x128))
          : Cert.KernelIdeal.S100000x128.Idx → EReal) i
          * (Cert.KernelIdeal.HostRead.invc (F := Ideal) x2 : Cert.KernelIdeal.S100000x1.Idx → EReal) (ix2 (i 0) (0 : Fin 1)))
      = Cert.ReferenceIdeal.Read.val_main_v17 (F := Ideal) x1 x2 x3 x4 := by
  funext i
  obtain ⟨e, k, rfl⟩ : ∃ (e : Fin 100000) (k : Fin 128), i = ix2 e k := ⟨i 0, i 1, eq_ix2 i⟩
  rw [summed_eq x1 x2 x3 x4 hnode]
  show Cert.ReferenceIdeal.Read.val_main_v9 (F := Ideal) x1 x2 x3 x4 (ix2 e k)
      * Cert.KernelIdeal.HostRead.invc (F := Ideal) x2 (ix2 e (0 : Fin 1)) = _
  rw [invc_apply, Cert.ReferenceIdeal.Read.val_main_v17_apply, v16_apply]
  generalize Cert.ReferenceIdeal.Read.val_main_v9 (F := Ideal) x1 x2 x3 x4 (ix2 e k) = s
  generalize Cert.ReferenceIdeal.Read.val_main_v13 (F := Ideal) x2 (ix1 e) = cnt
  have h1 : Ideal.div Cert.Hyper.one (max Cert.Hyper.one cnt) = Ideal.div 1 (max Cert.Hyper.one cnt) :=
    congrArg (fun z => Ideal.div z (max Cert.Hyper.one cnt)) Ideal.ofBits_one_f32
  rw [h1]
  exact Cert.Hyper.mul_one_div s _ (Cert.Hyper.clamp_ne_zero cnt)

end Cert.Bridge

end
-- ==== Proof.Final.lean ====
/-
  The two programs' results are one function of the arguments.

  The kernel program's result is the update stage of (summed rows × reciprocal clamped counts, hyperedge features,
  the two halves of the update matrix, the bias row); the reference's is the update stage of (summed rows / clamped
  counts, …) with its 256-wide contraction split in two. The averaged rows agree because multiplying by 1 / c is
  dividing by c for c ≠ 0 and a clamped count is at least 1; the bias rows agree because a vector re-laid as a row is
  its broadcast to that row.
-/
import proofs.«109613_j47390669144619_2_alg».proof.Proof.KValue
import proofs.«109613_j47390669144619_2_alg».proof.Proof.RefSpec
import proofs.«109613_j47390669144619_2_alg».proof.Proof.Bridge

set_option maxRecDepth 16384

noncomputable section

namespace Cert.Final

open Idealize.ShloMosaic Idealize.ShloMosaic.TcCoe Idealize.SL.Sem

/-- The kernel program's result array is the reference's last stage of the same arguments. -/
theorem result_eq (m : (ℓ : Loc Cert.KernelIdeal.nD Cert.KernelIdeal.τ Cert.KernelIdeal.sig) → Buf (Elt Ideal) ℓ) (c : Dev Cert.KernelIdeal.nD) :
    Cert.KernelIdeal.KValue.result m c
      = Cert.ReferenceIdeal.Read.val_main_v28 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6)) := by
  rw [Cert.RefSpec.ref_upd _ _ _ _ _ _ _ Cert.KernelIdeal.Gen.slices_S256x128_S128x128_0_0 Cert.KernelIdeal.Gen.slices_S256x128_S128x128_128_0]
  unfold Cert.KernelIdeal.KValue.result Cert.KernelIdeal.Region1.updOf Cert.KernelIdeal.KValue.nodes
  rw [Cert.Bridge.agg_eq _ _ _ _ (Cert.RefSpec.ref_node _ _ _), Cert.Bridge.bias_row']

end Cert.Final

end
-- ==== Proof.lean ====
/-
  A hyperedge update: node rows x are sent to relu (x · W + b); those rows are added up per hyperedge and divided by
  the member count clamped below by one; the averaged row a and the hyperedge's own features h give
  u = relu ([a | h] · Wupd + b'), and the result is u divided by max (‖u‖, 1e-12).

  The kernel program computes the first and the last stage in two tiled kernels (10,000 and 5,000 rows a block), keeps
  the scatter-add on the host, multiplies by the reciprocal of the clamped count instead of dividing by it, and splits
  the 256-wide contraction with Wupd into the two 128-wide ones with its upper and lower halves. On the extended
  reals the two programs are one function of the arguments:
    * a format change is the identity and a matrix product into a zero accumulator is the plain sum;
    * the scatter-adds are the same operation on the same indices, applied to equal rows;
    * x * (1 / c) = x / c for c ≠ 0, and a count clamped below by one is not 0;
    * a sum over 256 indices is the sum of its two halves.
  No step needs a finite value, so the precondition is never opened.

  The three frames: the two kernel programs' are generated whole; the reference's is its generated run with the
  result dropped. The idealization rewrote nothing, so `preserves` is trivial.
-/
import proofs.«109613_j47390669144619_2_alg».proof.Defs
import proofs.«109613_j47390669144619_2_alg».proof.Proof.Gen.Kernel
import proofs.«109613_j47390669144619_2_alg».proof.Proof.Gen.Kernel.Skeleton
import proofs.«109613_j47390669144619_2_alg».proof.Proof.Gen.Kernel.Launch
import proofs.«109613_j47390669144619_2_alg».proof.Proof.Gen.Kernel.Points
import proofs.«109613_j47390669144619_2_alg».proof.Proof.Gen.Kernel.Frame
import proofs.«109613_j47390669144619_2_alg».proof.Proof.Gen.KernelIdeal
import proofs.«109613_j47390669144619_2_alg».proof.Proof.Gen.KernelIdeal.Skeleton
import proofs.«109613_j47390669144619_2_alg».proof.Proof.Gen.KernelIdeal.Launch
import proofs.«109613_j47390669144619_2_alg».proof.Proof.Gen.KernelIdeal.Points
import proofs.«109613_j47390669144619_2_alg».proof.Proof.Gen.KernelIdeal.Frame
import proofs.«109613_j47390669144619_2_alg».proof.Proof.Gen.ReferenceIdeal
import proofs.«109613_j47390669144619_2_alg».proof.Proof.Gen.Pre_finite_inputs
import proofs.«109613_j47390669144619_2_alg».proof.Proof.Gen.ReferenceIdeal.Run
import proofs.«109613_j47390669144619_2_alg».proof.Proof.Gen.ReferenceIdeal.Read
import proofs.«109613_j47390669144619_2_alg».proof.Proof.KValue
import proofs.«109613_j47390669144619_2_alg».proof.Proof.Final
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at one function of the arguments: the kernel program's by its run read
    through its two kernels and host lines, the reference's by its run, the two functions equal. -/
theorem algebraic : Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq]
  obtain ⟨h0, h1, h2, h3, h4, h5, h6⟩ := hagree c
  rw [h0, h1, h2, h3, h4, h5, h6]
  exact (Cert.Final.result_eq m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
